-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x2048 : Shape := ⟨3, ![32, 512, 2048]⟩
abbrev S512x64 : Shape := ⟨2, ![512, 64]⟩
abbrev S64x2048 : Shape := ⟨2, ![64, 2048]⟩
abbrev S_ : Shape := ⟨0, ![]⟩

class Facts : Prop where
  bcast_S_S32x512x2048 : S_.BroadcastsInDim S32x512x2048 (![] : Fin 0 → Fin S32x512x2048.rank)
  reducesTo_S32x512x2048_S_d0_1_2 : S32x512x2048.ReducesTo [0, 1, 2] S_
  h_S_ : 0 < S_.numel
  bcast_S_S512x64 : S_.BroadcastsInDim S512x64 (![] : Fin 0 → Fin S512x64.rank)
  reducesTo_S512x64_S_d0_1 : S512x64.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg2 : FVec F S64x2048 .f32) (main_v13 : IVec S_ 1) (main_v15 : IVec S512x64 1) (main_c_5 : IVec S_ 1) : IVec S_ 1 :=
  let main_v16 : IVec S_ 1 := (fun x v => Host.reduce IntOp.andi x v reducesTo_S512x64_S_d0_1 h_S_) main_v15 main_c_5
  let main_v17 : IVec S_ 1 := andi main_v13 main_v16
  let main_cst_6 : FVec F S_ .f32 := constant S_ .f32 0x00000000#32
  let main_v18 : FVec F S64x2048 .f32 := broadcastInDim S64x2048 ![] bcast_S_S64x2048 main_cst_6
  let main_v19 : IVec S64x2048 1 := cmpf .oge main_arg2 main_v18
  let main_c_7 : IVec S_ 1 := constantI S_ 1 1#1
  let main_v20 : IVec S_ 1 := (fun x v => Host.reduce IntOp.andi x v reducesTo_S64x2048_S_d0_1 h_S_) main_v19 main_c_7
  let main_v21 : IVec S_ 1 := andi main_v17 main_v20
  main_v21

def fn {F : FTy → Type} [FloatOps F] (main_arg0 : FVec F S32x512x2048 .f32) (main_arg1 : FVec F S512x64 .f32) (main_arg2 : FVec F S64x2048 .f32) : IVec S_ 1 :=
  let main_v0 : FVec F S32x512x2048 .f32 := Host.absf main_arg0
  let main_cst : FVec F S_ .f32 := constant S_ .f32 0x7F800000#32
  let main_v1 : FVec F S32x512x2048 .f32 := broadcastInDim S32x512x2048 ![] bcast_S_S32x512x2048 main_cst
  let main_v2 : IVec S32x512x2048 1 := cmpf .olt main_v0 main_v1
  let main_c : IVec S_ 1 := constantI S_ 1 1#1
  let main_v3 : IVec S_ 1 := (fun x v => Host.reduce IntOp.andi x v reducesTo_S32x512x2048_S_d0_1_2 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64x2048 .f32 := Host.absf main_arg2
  let main_cst_2 : FVec F S_ .f32 := constant S_ .f32 0x7F800000#32
  let main_v10 : FVec F S64x2048 .f32 := broadcastInDim S64x2048 ![] bcast_S_S64x2048 main_cst_2
  let main_v11 : IVec S64x2048 1 := cmpf .olt main_v9 main_v10
  let main_c_3 : IVec S_ 1 := constantI S_ 1 1#1
  let main_v12 : IVec S_ 1 := (fun x v => Host.reduce IntOp.andi x v reducesTo_S64x2048_S_d0_1 h_S_) main_v11 main_c_3
  let main_v13 : IVec S_ 1 := andi main_v8 main_v12
  let main_cst_4 : FVec F S_ .f32 := constant S_ .f32 0x00000000#32
  let main_v14 : FVec F S512x64 .f32 := broadcastInDim S512x64 ![] bcast_S_S512x64 main_cst_4
  let main_v15 : IVec S512x64 1 := cmpf .oge main_arg1 main_v14
  let main_c_5 : IVec S_ 1 := constantI S_ 1 1#1
  fn_part1 (F := F) main_arg2 main_v13 main_v15 main_c_5
-- ==== Kernel.lean ====
abbrev S32x512x2048 : Shape := ⟨3, ![32, 512, 2048]⟩
abbrev S512x64 : Shape := ⟨2, ![512, 64]⟩
abbrev S64x2048 : Shape := ⟨2, ![64, 2048]⟩
abbrev S1x512x2048 : Shape := ⟨3, ![1, 512, 2048]⟩
abbrev S512x2048 : Shape := ⟨2, ![512, 2048]⟩
abbrev S64x64 : Shape := ⟨2, ![64, 64]⟩

abbrev nBuf : Space → Nat
  | .hbm => 4
  | .vmem => 6
  | .smem => 0
  | _ => 0

abbrev bufTy : (tb : Table) → Fin (tcTables nBuf tb) → BufTy
  | .hbm, ⟨0, _⟩ => ⟨S32x512x2048, .f32⟩
  | .hbm, ⟨1, _⟩ => ⟨S512x64, .f32⟩
  | .hbm, ⟨2, _⟩ => ⟨S64x2048, .f32⟩
  | .hbm, ⟨3, _⟩ => ⟨S32x512x2048, .f32⟩
  | .local _ .vmem, ⟨0, _⟩ => ⟨S1x512x2048, .f32⟩
  | .local _ .vmem, ⟨1, _⟩ => ⟨S1x512x2048, .f32⟩
  | .local _ .vmem, ⟨2, _⟩ => ⟨S512x64, .f32⟩
  | .local _ .vmem, ⟨3, _⟩ => ⟨S64x2048, .f32⟩
  | .local _ .vmem, ⟨4, _⟩ => ⟨S1x512x2048, .f32⟩
  | .local _ .vmem, ⟨5, _⟩ => ⟨S1x512x2048, .f32⟩
  | _, _ => ⟨S32x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S64x2048_S64x2048_0_0 : ∀ a, (![0, 0] : Fin 2 → Nat) a + S64x2048.size a ≤ S64x2048.size a
  h_S64x2048 : 0 < S64x2048.numel
  shapeCasts_S512x2048_S1x512x2048 : S512x2048.ShapeCasts S1x512x2048
  dot_S512x64_S512x2048_S64x2048_0_0_1_1_n_n_wf : DotDims.WF S512x64 S512x2048 S64x2048 [0] [0] [1] [1] [] []
  dot_S512x2048_S64x2048_S512x64_1_1_0_0_n_n_wf : DotDims.WF S512x2048 S64x2048 S512x64 [1] [1] [0] [0] [] []
  dot_S512x64_S512x64_S64x64_0_0_1_1_n_n_wf : DotDims.WF S512x64 S512x64 S64x64 [0] [0] [1] [1] [] []
  dot_S64x2048_S64x2048_S64x64_1_1_0_0_n_n_wf : DotDims.WF S64x2048 S64x2048 S64x64 [1] [1] [0] [0] [] []
  dot_S64x64_S64x2048_S64x2048_1_0_0_1_n_n_wf : DotDims.WF S64x64 S64x2048 S64x2048 [1] [0] [0] [1] [] []
  dot_S512x64_S64x64_S512x64_1_0_0_1_n_n_wf : DotDims.WF S512x64 S64x64 S512x64 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x512x2048.size a
  hwx0_0 : ∀ i : grid0.Coords, EltTy.bits .f32 = 32 ∨ (Rect.block (s := S32x512x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S32x512x2048.size a
  hwx0_3 : ∀ i : grid0.Coords, EltTy.bits .f32 = 32 ∨ (Rect.block (s := S32x512x2048) S1x512x2048.size (cc0_transform_3 i) (hinb0_3 i)).WholeWords (EltTy.packing .f32)

variable [Facts₀]

def dot_S512x64_S512x2048_S64x2048_0_0_1_1_n_n : DotDims S512x64 S512x2048 S64x2048 where
  lhsContracting := [0]
  rhsContracting := [0]
  lhsNonContracting := [1]
  rhsNonContracting := [1]
  lhsBatch := []
  rhsBatch := []
  wf := dot_S512x64_S512x2048_S64x2048_0_0_1_1_n_n_wf
def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf
def dot_S512x64_S512x64_S64x64_0_0_1_1_n_n : DotDims S512x64 S512x64 S64x64 where
  lhsContracting := [0]
  rhsContracting := [0]
  lhsNonContracting := [1]
  rhsNonContracting := [1]
  lhsBatch := []
  rhsBatch := []
  wf := dot_S512x64_S512x64_S64x64_0_0_1_1_n_n_wf
def dot_S64x2048_S64x2048_S64x64_1_1_0_0_n_n : DotDims S64x2048 S64x2048 S64x64 where
  lhsContracting := [1]
  rhsContracting := [1]
  lhsNonContracting := [0]
  rhsNonContracting := [0]
  lhsBatch := []
  rhsBatch := []
  wf := dot_S64x2048_S64x2048_S64x64_1_1_0_0_n_n_wf
def dot_S64x64_S64x2048_S64x2048_1_0_0_1_n_n : DotDims S64x64 S64x2048 S64x2048 where
  lhsContracting := [1]
  rhsContracting := [0]
  lhsNonContracting := [0]
  rhsNonContracting := [1]
  lhsBatch := []
  rhsBatch := []
  wf := dot_S64x64_S64x2048_S64x2048_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x2048 : Shape := ⟨3, ![32, 512, 2048]⟩
abbrev S512x64 : Shape := ⟨2, ![512, 64]⟩
abbrev S64x2048 : Shape := ⟨2, ![64, 2048]⟩
abbrev S_ : Shape := ⟨0, ![]⟩
abbrev S32x512x64 : Shape := ⟨3, ![32, 512, 64]⟩
abbrev S32x64x2048 : Shape := ⟨3, ![32, 64, 2048]⟩
abbrev S32x64x512 : Shape := ⟨3, ![32, 64, 512]⟩
abbrev S32x2048x64 : Shape := ⟨3, ![32, 2048, 64]⟩
abbrev S32x64x64 : Shape := ⟨3, ![32, 64, 64]⟩

abbrev nBuf : Space → Nat
  | .hbm => 117
  | .vmem => 0
  | .smem => 0
  | _ => 0

abbrev bufTy : (tb : Table) → Fin (tcTables nBuf tb) → BufTy
  | .hbm, ⟨0, _⟩ => ⟨S32x512x2048, .f32⟩
  | .hbm, ⟨1, _⟩ => ⟨S512x64, .f32⟩
  | .hbm, ⟨2, _⟩ => ⟨S64x2048, .f32⟩
  | .hbm, ⟨3, _⟩ => ⟨S_, .f32⟩
  | .hbm, ⟨4, _⟩ => ⟨S32x512x2048, .f32⟩
  | .hbm, ⟨5, _⟩ => ⟨S32x512x2048, .f32⟩
  | .hbm, ⟨6, _⟩ => ⟨S32x512x64, .f32⟩
  | .hbm, ⟨7, _⟩ => ⟨S32x64x2048, .f32⟩
  | .hbm, ⟨8, _⟩ => ⟨S32x64x512, .f32⟩
  | .hbm, ⟨9, _⟩ => ⟨S32x2048x64, .f32⟩
  | .hbm, ⟨10, _⟩ => ⟨S32x64x2048, .f32⟩
  | .hbm, ⟨11, _⟩ => ⟨S32x64x64, .f32⟩
  | .hbm, ⟨12, _⟩ => ⟨S32x64x2048, .f32⟩
  | .hbm, ⟨13, _⟩ => ⟨S_, .f32⟩
  | .hbm, ⟨14, _⟩ => ⟨S32x64x2048, .f32⟩
  | .hbm, ⟨15, _⟩ => ⟨S32x64x2048, .f32⟩
  | .hbm, ⟨16, _⟩ => ⟨S32x64x2048, .f32⟩
  | .hbm, ⟨17, _⟩ => ⟨S32x64x2048, .f32⟩
  | .hbm, ⟨18, _⟩ => ⟨S32x512x64, .f32⟩
  | .hbm, ⟨19, _⟩ => ⟨S32x512x2048, .f32⟩
  | .hbm, ⟨20, _⟩ => ⟨S32x512x64, .f32⟩
  | .hbm, ⟨21, _⟩ => ⟨S_, .f32⟩
  | .hbm, ⟨22, _⟩ => ⟨S32x512x64, .f32⟩
  | .hbm, ⟨23, _⟩ => ⟨S32x512x64, .f32⟩
  | .hbm, ⟨24, _⟩ => ⟨S32x512x64, .f32⟩
  | .hbm, ⟨25, _⟩ => ⟨S32x512x64, .f32⟩
  | .hbm, ⟨26, _⟩ => ⟨S32x64x512, .f32⟩
  | .hbm, ⟨27, _⟩ => ⟨S32x2048x64, .f32⟩
  | .hbm, ⟨28, _⟩ => ⟨S32x64x2048, .f32⟩
  | .hbm, ⟨29, _⟩ => ⟨S32x64x64, .f32⟩
  | .hbm, ⟨30, _⟩ => ⟨S32x64x2048, .f32⟩
  | .hbm, ⟨31, _⟩ => ⟨S_, .f32⟩
  | .hbm, ⟨32, _⟩ => ⟨S32x64x2048, .f32⟩
  | .hbm, ⟨33, _⟩ => ⟨S32x64x2048, .f32⟩
  | .hbm, ⟨34, _⟩ => ⟨S32x64x2048, .f32⟩
  | .hbm, ⟨35, _⟩ => ⟨S32x64x2048, .f32⟩
  | .hbm, ⟨36, _⟩ => ⟨S32x512x64, .f32⟩
  | .hbm, ⟨37, _⟩ => ⟨S32x512x2048, .f32⟩
  | .hbm, ⟨38, _⟩ => ⟨S32x512x64, .f32⟩
  | .hbm, ⟨39, _⟩ => ⟨S_, .f32⟩
  | .hbm, ⟨40, _⟩ => ⟨S32x512x64, .f32⟩
  | .hbm, ⟨41, _⟩ => ⟨S32x512x64, .f32⟩
  | .hbm, ⟨42, _⟩ => ⟨S32x512x64, .f32⟩
  | .hbm, ⟨43, _⟩ => ⟨S32x512x64, .f32⟩
  | .hbm, ⟨44, _⟩ => ⟨S32x64x512, .f32⟩
  | .hbm, ⟨45, _⟩ => ⟨S32x2048x64, .f32⟩
  | .hbm, ⟨46, _⟩ => ⟨S32x64x2048, .f32⟩
  | .hbm, ⟨47, _⟩ => ⟨S32x64x64, .f32⟩
  | .hbm, ⟨48, _⟩ => ⟨S32x64x2048, .f32⟩
  | .hbm, ⟨49, _⟩ => ⟨S_, .f32⟩
  | .hbm, ⟨50, _⟩ => ⟨S32x64x2048, .f32⟩
  | .hbm, ⟨51, _⟩ => ⟨S32x64x2048, .f32⟩
  | .hbm, ⟨52, _⟩ => ⟨S32x64x2048, .f32⟩
  | .hbm, ⟨53, _⟩ => ⟨S32x64x2048, .f32⟩
  | .hbm, ⟨54, _⟩ => ⟨S32x512x64, .f32⟩
  | .hbm, ⟨55, _⟩ => ⟨S32x512x2048, .f32⟩
  | .hbm, ⟨56, _⟩ => ⟨S32x512x64, .f32⟩
  | .hbm, ⟨57, _⟩ => ⟨S_, .f32⟩
  | .hbm, ⟨58, _⟩ => ⟨S32x512x64, .f32⟩
  | .hbm, ⟨59, _⟩ => ⟨S32x512x64, .f32⟩
  | .hbm, ⟨60, _⟩ => ⟨S32x512x64, .f32⟩
  | .hbm, ⟨61, _⟩ => ⟨S32x512x64, .f32⟩
  | .hbm, ⟨62, _⟩ => ⟨S32x64x512, .f32⟩
  | .hbm, ⟨63, _⟩ => ⟨S32x2048x64, .f32⟩
  | .hbm, ⟨64, _⟩ => ⟨S32x64x2048, .f32⟩
  | .hbm, ⟨65, _⟩ => ⟨S32x64x64, .f32⟩
  | .hbm, ⟨66, _⟩ => ⟨S32x64x2048, .f32⟩
  | .hbm, ⟨67, _⟩ => ⟨S_, .f32⟩
  | .hbm, ⟨68, _⟩ => ⟨S32x64x2048, .f32⟩
  | .hbm, ⟨69, _⟩ => ⟨S32x64x2048, .f32⟩
  | .hbm, ⟨70, _⟩ => ⟨S32x64x2048, .f32⟩
  | .hbm, ⟨71, _⟩ => ⟨S32x64x2048, .f32⟩
  | .hbm, ⟨72, _⟩ => ⟨S32x512x64, .f32⟩
  | .hbm, ⟨73, _⟩ => ⟨S32x512x2048, .f32⟩
  | .hbm, ⟨74, _⟩ => ⟨S32x512x64, .f32⟩
  | .hbm, ⟨75, _⟩ => ⟨S_, .f32⟩
  | .hbm, ⟨76, _⟩ => ⟨S32x512x64, .f32⟩
  | .hbm, ⟨77, _⟩ => ⟨S32x512x64, .f32⟩
  | .hbm, ⟨78, _⟩ => ⟨S32x512x64, .f32⟩
  | .hbm, ⟨79, _⟩ => ⟨S32x512x64, .f32⟩
  | .hbm, ⟨80, _⟩ => ⟨S32x64x512, .f32⟩
  | .hbm, ⟨81, _⟩ => ⟨S32x2048x64, .f32⟩
  | .hbm, ⟨82, _⟩ => ⟨S32x64x2048, .f32⟩
  | .hbm, ⟨83, _⟩ => ⟨S32x64x64, .f32⟩
  | .hbm, ⟨84, _⟩ => ⟨S32x64x2048, .f32⟩
  | .hbm, ⟨85, _⟩ => ⟨S_, .f32⟩
  | .hbm, ⟨86, _⟩ => ⟨S32x64x2048, .f32⟩
  | .hbm, ⟨87, _⟩ => ⟨S32x64x2048, .f32⟩
  | .hbm, ⟨88, _⟩ => ⟨S32x64x2048, .f32⟩
  | .hbm, ⟨89, _⟩ => ⟨S32x64x2048, .f32⟩
  | .hbm, ⟨90, _⟩ => ⟨S32x512x64, .f32⟩
  | .hbm, ⟨91, _⟩ => ⟨S32x512x2048, .f32⟩
  | .hbm, ⟨92, _⟩ => ⟨S32x512x64, .f32⟩
  | .hbm, ⟨93, _⟩ => ⟨S_, .f32⟩
  | .hbm, ⟨94, _⟩ => ⟨S32x512x64, .f32⟩
  | .hbm, ⟨95, _⟩ => ⟨S32x512x64, .f32⟩
  | .hbm, ⟨96, _⟩ => ⟨S32x512x64, .f32⟩
  | .hbm, ⟨97, _⟩ => ⟨S32x512x64, .f32⟩
  | .hbm, ⟨98, _⟩ => ⟨S32x64x512, .f32⟩
  | .hbm, ⟨99, _⟩ => ⟨S32x2048x64, .f32⟩
  | .hbm, ⟨100, _⟩ => ⟨S32x64x2048, .f32⟩
  | .hbm, ⟨101, _⟩ => ⟨S32x64x64, .f32⟩
  | .hbm, ⟨102, _⟩ => ⟨S32x64x2048, .f32⟩
  | .hbm, ⟨103, _⟩ => ⟨S_, .f32⟩
  | .hbm, ⟨104, _⟩ => ⟨S32x64x2048, .f32⟩
  | .hbm, ⟨105, _⟩ => ⟨S32x64x2048, .f32⟩
  | .hbm, ⟨106, _⟩ => ⟨S32x64x2048, .f32⟩
  | .hbm, ⟨107, _⟩ => ⟨S32x64x2048, .f32⟩
  | .hbm, ⟨108, _⟩ => ⟨S32x512x64, .f32⟩
  | .hbm, ⟨109, _⟩ => ⟨S32x512x2048, .f32⟩
  | .hbm, ⟨110, _⟩ => ⟨S32x512x64, .f32⟩
  | .hbm, ⟨111, _⟩ => ⟨S_, .f32⟩
  | .hbm, ⟨112, _⟩ => ⟨S32x512x64, .f32⟩
  | .hbm, ⟨113, _⟩ => ⟨S32x512x64, .f32⟩
  | .hbm, ⟨114, _⟩ => ⟨S32x512x64, .f32⟩
  | .hbm, ⟨115, _⟩ => ⟨S32x512x64, .f32⟩
  | .hbm, ⟨116, _⟩ => ⟨S32x512x2048, .f32⟩
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_6 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_7 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_8 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_9 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_10 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩

abbrev nD : Nat := 1
abbrev τ : Topo := Topo.v7x

variable {F : FTy → Type} [FloatOps F]

class Facts₀ : Prop where
  bcast_S_S32x512x2048 : S_.BroadcastsInDim S32x512x2048 (![] : Fin 0 → Fin S32x512x2048.rank)
  bcast_S512x64_S32x512x64_1_2 : S512x64.BroadcastsInDim S32x512x64 (![1, 2] : Fin 2 → Fin S32x512x64.rank)
  bcast_S64x2048_S32x64x2048_1_2 : S64x2048.BroadcastsInDim S32x64x2048 (![1, 2] : Fin 2 → Fin S32x64x2048.rank)
  transposes_S32x512x64_S32x64x512_0_2_1 : S32x512x64.Transposes [0, 2, 1] S32x64x512
  transposes_S32x64x2048_S32x2048x64_0_2_1 : S32x64x2048.Transposes [0, 2, 1] S32x2048x64
  bcast_S_S32x64x2048 : S_.BroadcastsInDim S32x64x2048 (![] : Fin 0 → Fin S32x64x2048.rank)
  bcast_S_S32x512x64 : S_.BroadcastsInDim S32x512x64 (![] : Fin 0 → Fin S32x512x64.rank)
  dot_S32x64x512_S32x512x2048_S32x64x2048_2_1_1_2_0_0_wf : DotDims.WF S32x64x512 S32x512x2048 S32x64x2048 [2] [1] [1] [2] [0] [0]
  dot_S32x64x512_S32x512x64_S32x64x64_2_1_1_2_0_0_wf : DotDims.WF S32x64x512 S32x512x64 S32x64x64 [2] [1] [1] [2] [0] [0]
  dot_S32x64x64_S32x64x2048_S32x64x2048_2_1_1_2_0_0_wf : DotDims.WF S32x64x64 S32x64x2048 S32x64x2048 [2] [1] [1] [2] [0] [0]
  dot_S32x512x2048_S32x2048x64_S32x512x64_2_1_1_2_0_0_wf : DotDims.WF S32x512x2048 S32x2048x64 S32x512x64 [2] [1] [1] [2] [0] [0]
  dot_S32x512x64_S32x64x2048_S32x512x2048_2_1_1_2_0_0_wf : DotDims.WF S32x512x64 S32x64x2048 S32x512x2048 [2] [1] [1] [2] [0] [0]

variable [Facts₀]

def dot_S32x64x512_S32x512x2048_S32x64x2048_2_1_1_2_0_0 : DotDims S32x64x512 S32x512x2048 S32x64x2048 where
  lhsContracting := [2]
  rhsContracting := [1]
  lhsNonContracting := [1]
  rhsNonContracting := [2]
  lhsBatch := [0]
  rhsBatch := [0]
  wf := dot_S32x64x512_S32x512x2048_S32x64x2048_2_1_1_2_0_0_wf
def dot_S32x64x512_S32x512x64_S32x64x64_2_1_1_2_0_0 : DotDims S32x64x512 S32x512x64 S32x64x64 where
  lhsContracting := [2]
  rhsContracting := [1]
  lhsNonContracting := [1]
  rhsNonContracting := [2]
  lhsBatch := [0]
  rhsBatch := [0]
  wf := dot_S32x64x512_S32x512x64_S32x64x64_2_1_1_2_0_0_wf
def dot_S32x64x64_S32x64x2048_S32x64x2048_2_1_1_2_0_0 : DotDims S32x64x64 S32x64x2048 S32x64x2048 where
  lhsContracting := [2]
  rhsContracting := [1]
  lhsNonContracting := [1]
  rhsNonContracting := [2]
  lhsBatch := [0]
  rhsBatch := [0]
  wf := dot_S32x64x64_S32x64x2048_S32x64x2048_2_1_1_2_0_0_wf
def dot_S32x512x2048_S32x2048x64_S32x512x64_2_1_1_2_0_0 : DotDims S32x512x2048 S32x2048x64 S32x512x64 where
  lhsContracting := [2]
  rhsContracting := [1]
  lhsNonContracting := [1]
  rhsNonContracting := [2]
  lhsBatch := [0]
  rhsBatch := [0]
  wf := dot_S32x512x2048_S32x2048x64_S32x512x64_2_1_1_2_0_0_wf
def dot_S32x512x64_S32x64x2048_S32x512x2048_2_1_1_2_0_0 : DotDims S32x512x64 S32x64x2048 S32x512x2048 where
  lhsContracting := [2]
  rhsContracting := [1]
  lhsNonContracting := [1]
  rhsNonContracting := [2]
  lhsBatch := [0]
  rhsBatch := [0]
  wf := dot_S32x512x64_S32x64x2048_S32x512x2048_2_1_1_2_0_0_wf

class Facts : Prop extends Facts₀ where

variable [Facts]
-- ==== Proof.LibNonnegSum.lean ====
/-
  Sums and products of NONNEGATIVE extended reals (a general lemma file; nothing here mentions a program).

  On the extended reals `c * (a + b) = c * a + c * b` can fail (`⊤ * (1 + (-1)) = 0`, `⊤ * 1 + ⊤ * (-1) = ⊥`), so a product of three
  matrices cannot be re-bracketed in general.  For NONNEGATIVE entries — `⊤` allowed — it can:
  • `mul_sum_nn`, `sum_mul_nn`: multiplication by ANY extended real distributes over a finite sum of nonnegative terms;
  • `assoc_nn`: one entry of `D (C Eᵀ)` and of `(D C) Eᵀ` (`D` a row, `C` a matrix, `c` a row of `E`) are one triple sum;
  • `div_nn`: at the ideal instance a nonnegative numerator over `b + e` with `0 ≤ b`, `0 < e` is nonnegative (the divisor is not
    zero, so `Ideal.div` is the product with the inverse, and the inverse of a nonnegative extended real is nonnegative).
  `NN A` says a matrix (any two index types) has nonnegative entries.
-/
import Mathlib.Data.EReal.Inv
import Idealize.ShloMosaic.PureOps.Ideal

noncomputable section

open Idealize.ShloMosaic

namespace Cert.NonnegSum

/-- Multiplication distributes over a finite sum of nonnegative extended reals (from the left). -/
theorem mul_sum_nn {α : Type} (s : Finset α) (c : EReal) (f : α → EReal) (hf : ∀ a, 0 ≤ f a) :
    c * ∑ a ∈ s, f a = ∑ a ∈ s, c * f a := by
  classical
  induction s using Finset.induction_on with
  | empty => simp
  | insert a s ha ih =>
    rw [Finset.sum_insert ha, Finset.sum_insert ha,
      EReal.left_distrib_of_nonneg (hf a) (Finset.sum_nonneg fun i _ => hf i), ih]

/-- The same from the right. -/
theorem sum_mul_nn {α : Type} (s : Finset α) (c : EReal) (f : α → EReal) (hf : ∀ a, 0 ≤ f a) :
    (∑ a ∈ s, f a) * c = ∑ a ∈ s, f a * c := by
  rw [mul_comm, mul_sum_nn s c f hf]
  exact Finset.sum_congr rfl fun a _ => mul_comm _ _

variable {κ ν : Type} [Fintype κ] [Fintype ν]

/-- A matrix with nonnegative entries. -/
def NN {α β : Type} (A : α → β → EReal) : Prop := ∀ a b, 0 ≤ A a b

/-- One entry of D (C Cᵀ) and of (D C) Cᵀ: for nonnegative entries the two bracketings are one triple sum. -/
theorem assoc_nn (D : κ → EReal) (C : κ → ν → EReal) (c : ν → EReal)
    (hD : ∀ s, 0 ≤ D s) (hC : NN C) (hc : ∀ n, 0 ≤ c n) :
    ∑ s, D s * ∑ n, C s n * c n = ∑ n, (∑ s, D s * C s n) * c n := by
  calc ∑ s, D s * ∑ n, C s n * c n
      = ∑ s, ∑ n, D s * (C s n * c n) :=
        Finset.sum_congr rfl fun s _ => mul_sum_nn _ _ _ fun n => EReal.mul_nonneg (hC s n) (hc n)
    _ = ∑ n, ∑ s, D s * (C s n * c n) := Finset.sum_comm
    _ = ∑ n, (∑ s, D s * C s n) * c n := by
        refine Finset.sum_congr rfl fun n _ => ?_
        rw [sum_mul_nn _ _ _ fun s => EReal.mul_nonneg (hD s) (hC s n)]
        exact Finset.sum_congr rfl fun s _ => (mul_assoc _ _ _).symm

/-- A nonnegative numerator over a divisor that is a nonnegative plus a positive: nonnegative (the divisor is not zero,
    so the quotient is the product with the inverse, and the inverse of a nonnegative is nonnegative). -/
theorem div_nn {a b e : EReal} (ha : 0 ≤ a) (hb : 0 ≤ b) (he : 0 < e) : 0 ≤ Ideal.div a (b + e) := by
  have hpos : 0 < b + e := lt_of_lt_of_le he (le_add_of_nonneg_left hb)
  unfold Ideal.div
  rw [if_neg hpos.ne']
  exact EReal.mul_nonneg ha (EReal.inv_nonneg_of_nonneg hpos.le)

end Cert.NonnegSum

end
-- ==== Proof.NonnegLaw.lean ====
/-
  The mathematics of the certificate, with no program in sight.

  One round of the multiplicative update for a factorisation X ≈ D C over the extended reals:
    C' = C ⊙ (Dᵀ X) ⊘ ((Dᵀ D) C + ε),      D' = D ⊙ (X Cᵀ) ⊘ (M + ε),
  where the divisor matrix M is D (C Cᵀ) for one program and (D C) Cᵀ for the other.  On the extended reals a product
  does not distribute over a sum in general (∞ · (1 + (-1)) = 0 but ∞ · 1 + ∞ · (-1) = -∞), so the two bracketings
  can differ.  They agree when every entry is NONNEGATIVE: multiplication by any extended real distributes over a sum of
  nonnegative terms, whence the triple sum can be taken in either order (the general lemmas are in LibNonnegSum).
  Nonnegativity is kept by a round (a product of nonnegatives; a quotient of a nonnegative by a divisor that is at least
  ε > 0), so the two programs' rounds agree for as many rounds as one likes.
-/
import proofs.«117164_j8220567404862_2_alg».proof.Proof.LibNonnegSum

noncomputable section

open Idealize.ShloMosaic

namespace Cert.Nmf

open Cert.NonnegSum

variable {ι κ ν : Type} [Fintype ι] [Fintype κ] [Fintype ν]

/-- The coefficient update: C ⊙ (Dᵀ X) ⊘ ((Dᵀ D) C + ε). -/
def updC (e : EReal) (X : ι → ν → EReal) (D : ι → κ → EReal) (C : κ → ν → EReal) : κ → ν → EReal :=
  fun r n => C r n * Ideal.div (∑ d, D d r * X d n) ((∑ s, (∑ d, D d r * D d s) * C s n) + e)

/-- The basis update with the divisor D (C Cᵀ) + ε. -/
def updDk (e : EReal) (X : ι → ν → EReal) (D : ι → κ → EReal) (C : κ → ν → EReal) : ι → κ → EReal :=
  fun d r => D d r * Ideal.div (∑ n, X d n * C r n) ((∑ s, D d s * ∑ n, C s n * C r n) + e)

/-- The basis update with the divisor (D C) Cᵀ + ε. -/
def updDr (e : EReal) (X : ι → ν → EReal) (D : ι → κ → EReal) (C : κ → ν → EReal) : ι → κ → EReal :=
  fun d r => D d r * Ideal.div (∑ n, X d n * C r n) ((∑ n, (∑ s, D d s * C s n) * C r n) + e)

/-- The product D C. -/
def prod (D : ι → κ → EReal) (C : κ → ν → EReal) : ι → ν → EReal := fun d n => ∑ s, D d s * C s n

variable {e : EReal} {X : ι → ν → EReal} {D : ι → κ → EReal} {C : κ → ν → EReal}

theorem updDk_eq_updDr (hD : NN D) (hC : NN C) : updDk e X D C = updDr e X D C := by
  funext d r
  unfold updDk updDr
  rw [assoc_nn (fun s => D d s) C (fun n => C r n) (hD d) hC (hC r)]

theorem updC_nn (he : 0 < e) (hX : NN X) (hD : NN D) (hC : NN C) : NN (updC e X D C) := fun r n =>
  EReal.mul_nonneg (hC r n) (div_nn (Finset.sum_nonneg fun d _ => EReal.mul_nonneg (hD d r) (hX d n))
    (Finset.sum_nonneg fun s _ => EReal.mul_nonneg (Finset.sum_nonneg fun d _ => EReal.mul_nonneg (hD d r) (hD d s)) (hC s n)) he)

theorem updDr_nn (he : 0 < e) (hX : NN X) (hD : NN D) (hC : NN C) : NN (updDr e X D C) := fun d r =>
  EReal.mul_nonneg (hD d r) (div_nn (Finset.sum_nonneg fun n _ => EReal.mul_nonneg (hX d n) (hC r n))
    (Finset.sum_nonneg fun n _ => EReal.mul_nonneg (Finset.sum_nonneg fun s _ => EReal.mul_nonneg (hD d s) (hC s n)) (hC r n)) he)

/-- One round, with the divisor bracketed as D (C Cᵀ). -/
def stepK (e : EReal) (X : ι → ν → EReal) (p : (ι → κ → EReal) × (κ → ν → EReal)) : (ι → κ → EReal) × (κ → ν → EReal) :=
  (updDk e X p.1 p.2, updC e X p.1 p.2)

/-- One round, with the divisor bracketed as (D C) Cᵀ. -/
def stepR (e : EReal) (X : ι → ν → EReal) (p : (ι → κ → EReal) × (κ → ν → EReal)) : (ι → κ → EReal) × (κ → ν → EReal) :=
  (updDr e X p.1 p.2, updC e X p.1 p.2)

/-- From nonnegative data and nonnegative factors the two kinds of round agree for any number of rounds, and the
    factors stay nonnegative. -/
theorem iter_eq (he : 0 < e) (hX : NN X) (p : (ι → κ → EReal) × (κ → ν → EReal)) (h1 : NN p.1) (h2 : NN p.2) (k : ℕ) :
    (stepK e X)^[k] p = (stepR e X)^[k] p ∧ NN ((stepR e X)^[k] p).1 ∧ NN ((stepR e X)^[k] p).2 := by
  induction k with
  | zero => exact ⟨rfl, h1, h2⟩
  | succ k ih =>
    obtain ⟨hk, hd, hc⟩ := ih
    rw [Function.iterate_succ_apply', Function.iterate_succ_apply', hk]
    refine ⟨?_, updDr_nn he hX hd hc, updC_nn he hX hd hc⟩
    show (updDk e X _ _, updC e X _ _) = (updDr e X _ _, updC e X _ _)
    rw [updDk_eq_updDr hd hc]

end Cert.Nmf

end
-- ==== Proof.Eps.lean ====
/-
  The guard ε both programs add to their divisors: the f32 word 0x32ABCC77, which denotes the rational 11258999 / 2^49
  (the float nearest 2·10⁻⁸).  All the proof needs of it is that it is positive.
-/
import Idealize.ShloMosaic.PureOps.Ideal
import Idealize.ShloMosaic.Lib.ValueIdx

noncomputable section

namespace Cert.Nmf

open Idealize.ShloMosaic

theorem ofBits_eps : Ideal.ofBits .f32 0x32ABCC77#32 = ((11258999 / 562949953421312 : ℝ) : EReal) := by
  simp [Ideal.ofBits, Ideal.ieee, -EReal.coe_mul]; norm_num

theorem ofBits_eps_pos : (0 : EReal) < Ideal.ofBits .f32 0x32ABCC77#32 := by
  rw [ofBits_eps]
  exact_mod_cast (by norm_num : (0 : ℝ) < 11258999 / 562949953421312)

/-- The guard ε as an extended real. -/
def eps : EReal := Ideal.ofBits .f32 0x32ABCC77#32

theorem eps_pos : (0 : EReal) < eps := ofBits_eps_pos

/-- A rank-2 array as the matrix of its entries. -/
def mat {a b : Nat} (v : (⟨2, ![a, b]⟩ : Shape).Idx → EReal) : Fin a → Fin b → EReal := fun p q => v (ValueIdx.ix2 p q)

/-- Slice `t` of a stack of matrices, as a matrix. -/
def sl {m a b : Nat} (A : (⟨3, ![m, a, b]⟩ : Shape).Idx → EReal) (t : Fin m) : Fin a → Fin b → EReal :=
  fun p q => A (ValueIdx.ix3 t p q)

end Cert.Nmf

end
-- ==== Proof.KernelRound.lean ====
/-
  One round of the kernel body, read entry by entry.

  The body keeps the data block `X = max(x, 0)` and the factors `D` (512×64), `C` (64×2048) as vectors and makes six rounds
  `C ← C ⊙ (Dᵀ X) ⊘ ((Dᵀ D) C + ε)`, `D ← D ⊙ (X Cᵀ) ⊘ (D (C Cᵀ) + ε)` (both from the OLD factors), then stores `D C`.  Its
  changes of float format are the identity on the extended reals and every product is into a zero accumulator, so each matrix product
  read at an entry is the plain sum over the contracted axis; here each of the seven product shapes is read once, then one round, then
  the six rounds and the final product.
-/
import proofs.«117164_j8220567404862_2_alg».proof.Proof.Gen.KernelIdeal.Skeleton
import proofs.«117164_j8220567404862_2_alg».proof.Proof.NonnegLaw
import proofs.«117164_j8220567404862_2_alg».proof.Proof.Eps
import Idealize.ShloMosaic.Lib.ValueIdx
import Idealize.ShloMosaic.Lib.ValueLayout
import Idealize.ShloMosaic.PureOps.Ideal.Laws

noncomputable section

namespace Cert.KernelIdeal.Round

open Idealize.ShloMosaic Idealize.ShloMosaic.ValueIdx Cert.KernelIdeal Cert.KernelIdeal.Gen Cert.Nmf

/-! ## The seven matrix products at an entry -/

/-! ### `Dᵀ X`: the left operand contracted on its rows -/

theorem dtx_l0 (i : S64x2048.Idx) (q : dot_S512x64_S512x2048_S64x2048_0_0_1_1_n_n.contr.Idx) :
    (dot_S512x64_S512x2048_S64x2048_0_0_1_1_n_n.lhsIdx i q 0).val = (q ⟨0, by decide⟩).val :=
  dot_S512x64_S512x2048_S64x2048_0_0_1_1_n_n.lhsIdx_val_of_single rfl i q
theorem dtx_l1 (i : S64x2048.Idx) (q : dot_S512x64_S512x2048_S64x2048_0_0_1_1_n_n.contr.Idx) :
    (dot_S512x64_S512x2048_S64x2048_0_0_1_1_n_n.lhsIdx i q 1).val = (i 0).val := by
  unfold DotDims.lhsIdx
  rw [dif_neg (show ¬(1 : Fin S512x64.rank) ∈ dot_S512x64_S512x2048_S64x2048_0_0_1_1_n_n.lhsBatch by decide), dif_pos (show (1 : Fin S512x64.rank) ∈ dot_S512x64_S512x2048_S64x2048_0_0_1_1_n_n.lhsNonContracting by decide)]
  rfl
theorem dtx_r0 (i : S64x2048.Idx) (q : dot_S512x64_S512x2048_S64x2048_0_0_1_1_n_n.contr.Idx) :
    (dot_S512x64_S512x2048_S64x2048_0_0_1_1_n_n.rhsIdx i q 0).val = (q ⟨0, by decide⟩).val :=
  dot_S512x64_S512x2048_S64x2048_0_0_1_1_n_n.rhsIdx_val_of_single rfl i q
theorem dtx_r1 (i : S64x2048.Idx) (q : dot_S512x64_S512x2048_S64x2048_0_0_1_1_n_n.contr.Idx) :
    (dot_S512x64_S512x2048_S64x2048_0_0_1_1_n_n.rhsIdx i q 1).val = (i 1).val := by
  unfold DotDims.rhsIdx
  rw [dif_neg (show ¬(1 : Fin S512x2048.rank) ∈ dot_S512x64_S512x2048_S64x2048_0_0_1_1_n_n.rhsBatch by decide), dif_pos (show (1 : Fin S512x2048.rank) ∈ dot_S512x64_S512x2048_S64x2048_0_0_1_1_n_n.rhsNonContracting by decide)]
  rfl

/-- Entry `(p, q)` of the product into a zero accumulator is the sum over the contracted axis. -/
theorem dtx_apply {φ₁ φ₂ : FTy} (prec : Option ContractPrecision) (L : FVec Ideal S512x64 φ₁) (R : FVec Ideal S512x2048 φ₂) (p : Fin 64) (q : Fin 2048) :
    matmul dot_S512x64_S512x2048_S64x2048_0_0_1_1_n_n prec L R (constant S64x2048 .f32 0x00000000#32) (ix2 p q) = ∑ k : Fin 512, L (ix2 k p) * R (ix2 k q) := by
  simp only [matmul]
  rw [Ideal.matmul_constant_zero_apply, ← Equiv.sum_comp (contrEquiv1 dot_S512x64_S512x2048_S64x2048_0_0_1_1_n_n 512 rfl rfl).symm]
  refine Finset.sum_congr rfl fun k _ => ?_
  have hk := contrEquiv1_symm_val dot_S512x64_S512x2048_S64x2048_0_0_1_1_n_n 512 rfl rfl k
  have el : dot_S512x64_S512x2048_S64x2048_0_0_1_1_n_n.lhsIdx (ix2 p q) ((contrEquiv1 dot_S512x64_S512x2048_S64x2048_0_0_1_1_n_n 512 rfl rfl).symm k) = ix2 k p := funext fun a => Fin.ext (by
    match a with
    | ⟨0, _⟩ => exact (dtx_l0 _ _).trans hk
    | ⟨1, _⟩ => exact dtx_l1 _ _)
  have er : dot_S512x64_S512x2048_S64x2048_0_0_1_1_n_n.rhsIdx (ix2 p q) ((contrEquiv1 dot_S512x64_S512x2048_S64x2048_0_0_1_1_n_n 512 rfl rfl).symm k) = ix2 k q := funext fun a => Fin.ext (by
    match a with
    | ⟨0, _⟩ => exact (dtx_r0 _ _).trans hk
    | ⟨1, _⟩ => exact dtx_r1 _ _)
  rw [el, er]

/-! ### `X Cᵀ`: both operands contracted on their columns -/

theorem xct_l1 (i : S512x64.Idx) (q : dot_S512x2048_S64x2048_S512x64_1_1_0_0_n_n.contr.Idx) :
    (dot_S512x2048_S64x2048_S512x64_1_1_0_0_n_n.lhsIdx i q 1).val = (q ⟨0, by decide⟩).val :=
  dot_S512x2048_S64x2048_S512x64_1_1_0_0_n_n.lhsIdx_val_of_single rfl i q
theorem xct_l0 (i : S512x64.Idx) (q : dot_S512x2048_S64x2048_S512x64_1_1_0_0_n_n.contr.Idx) :
    (dot_S512x2048_S64x2048_S512x64_1_1_0_0_n_n.lhsIdx i q 0).val = (i 0).val := by
  unfold DotDims.lhsIdx
  rw [dif_neg (show ¬(0 : Fin S512x2048.rank) ∈ dot_S512x2048_S64x2048_S512x64_1_1_0_0_n_n.lhsBatch by decide), dif_pos (show (0 : Fin S512x2048.rank) ∈ dot_S512x2048_S64x2048_S512x64_1_1_0_0_n_n.lhsNonContracting by decide)]
  rfl
theorem xct_r1 (i : S512x64.Idx) (q : dot_S512x2048_S64x2048_S512x64_1_1_0_0_n_n.contr.Idx) :
    (dot_S512x2048_S64x2048_S512x64_1_1_0_0_n_n.rhsIdx i q 1).val = (q ⟨0, by decide⟩).val :=
  dot_S512x2048_S64x2048_S512x64_1_1_0_0_n_n.rhsIdx_val_of_single rfl i q
theorem xct_r0 (i : S512x64.Idx) (q : dot_S512x2048_S64x2048_S512x64_1_1_0_0_n_n.contr.Idx) :
    (dot_S512x2048_S64x2048_S512x64_1_1_0_0_n_n.rhsIdx i q 0).val = (i 1).val := by
  unfold DotDims.rhsIdx
  rw [dif_neg (show ¬(0 : Fin S64x2048.rank) ∈ dot_S512x2048_S64x2048_S512x64_1_1_0_0_n_n.rhsBatch by decide), dif_pos (show (0 : Fin S64x2048.rank) ∈ dot_S512x2048_S64x2048_S512x64_1_1_0_0_n_n.rhsNonContracting by decide)]
  rfl

/-- Entry `(p, q)` of the product into a zero accumulator is the sum over the contracted axis. -/
theorem xct_apply {φ₁ φ₂ : FTy} (prec : Option ContractPrecision) (L : FVec Ideal S512x2048 φ₁) (R : FVec Ideal S64x2048 φ₂) (p : Fin 512) (q : Fin 64) :
    matmul dot_S512x2048_S64x2048_S512x64_1_1_0_0_n_n prec L R (constant S512x64 .f32 0x00000000#32) (ix2 p q) = ∑ k : Fin 2048, L (ix2 p k) * R (ix2 q k) := by
  simp only [matmul]
  rw [Ideal.matmul_constant_zero_apply, ← Equiv.sum_comp (contrEquiv1 dot_S512x2048_S64x2048_S512x64_1_1_0_0_n_n 2048 rfl rfl).symm]
  refine Finset.sum_congr rfl fun k _ => ?_
  have hk := contrEquiv1_symm_val dot_S512x2048_S64x2048_S512x64_1_1_0_0_n_n 2048 rfl rfl k
  have el : dot_S512x2048_S64x2048_S512x64_1_1_0_0_n_n.lhsIdx (ix2 p q) ((contrEquiv1 dot_S512x2048_S64x2048_S512x64_1_1_0_0_n_n 2048 rfl rfl).symm k) = ix2 p k := funext fun a => Fin.ext (by
    match a with
    | ⟨1, _⟩ => exact (xct_l1 _ _).trans hk
    | ⟨0, _⟩ => exact xct_l0 _ _)
  have er : dot_S512x2048_S64x2048_S512x64_1_1_0_0_n_n.rhsIdx (ix2 p q) ((contrEquiv1 dot_S512x2048_S64x2048_S512x64_1_1_0_0_n_n 2048 rfl rfl).symm k) = ix2 q k := funext fun a => Fin.ext (by
    match a with
    | ⟨1, _⟩ => exact (xct_r1 _ _).trans hk
    | ⟨0, _⟩ => exact xct_r0 _ _)
  rw [el, er]

/-! ### `Dᵀ D` -/

theorem dtd_l0 (i : S64x64.Idx) (q : dot_S512x64_S512x64_S64x64_0_0_1_1_n_n.contr.Idx) :
    (dot_S512x64_S512x64_S64x64_0_0_1_1_n_n.lhsIdx i q 0).val = (q ⟨0, by decide⟩).val :=
  dot_S512x64_S512x64_S64x64_0_0_1_1_n_n.lhsIdx_val_of_single rfl i q
theorem dtd_l1 (i : S64x64.Idx) (q : dot_S512x64_S512x64_S64x64_0_0_1_1_n_n.contr.Idx) :
    (dot_S512x64_S512x64_S64x64_0_0_1_1_n_n.lhsIdx i q 1).val = (i 0).val := by
  unfold DotDims.lhsIdx
  rw [dif_neg (show ¬(1 : Fin S512x64.rank) ∈ dot_S512x64_S512x64_S64x64_0_0_1_1_n_n.lhsBatch by decide), dif_pos (show (1 : Fin S512x64.rank) ∈ dot_S512x64_S512x64_S64x64_0_0_1_1_n_n.lhsNonContracting by decide)]
  rfl
theorem dtd_r0 (i : S64x64.Idx) (q : dot_S512x64_S512x64_S64x64_0_0_1_1_n_n.contr.Idx) :
    (dot_S512x64_S512x64_S64x64_0_0_1_1_n_n.rhsIdx i q 0).val = (q ⟨0, by decide⟩).val :=
  dot_S512x64_S512x64_S64x64_0_0_1_1_n_n.rhsIdx_val_of_single rfl i q
theorem dtd_r1 (i : S64x64.Idx) (q : dot_S512x64_S512x64_S64x64_0_0_1_1_n_n.contr.Idx) :
    (dot_S512x64_S512x64_S64x64_0_0_1_1_n_n.rhsIdx i q 1).val = (i 1).val := by
  unfold DotDims.rhsIdx
  rw [dif_neg (show ¬(1 : Fin S512x64.rank) ∈ dot_S512x64_S512x64_S64x64_0_0_1_1_n_n.rhsBatch by decide), dif_pos (show (1 : Fin S512x64.rank) ∈ dot_S512x64_S512x64_S64x64_0_0_1_1_n_n.rhsNonContracting by decide)]
  rfl

/-- Entry `(p, q)` of the product into a zero accumulator is the sum over the contracted axis. -/
theorem dtd_apply {φ₁ φ₂ : FTy} (prec : Option ContractPrecision) (L : FVec Ideal S512x64 φ₁) (R : FVec Ideal S512x64 φ₂) (p : Fin 64) (q : Fin 64) :
    matmul dot_S512x64_S512x64_S64x64_0_0_1_1_n_n prec L R (constant S64x64 .f32 0x00000000#32) (ix2 p q) = ∑ k : Fin 512, L (ix2 k p) * R (ix2 k q) := by
  simp only [matmul]
  rw [Ideal.matmul_constant_zero_apply, ← Equiv.sum_comp (contrEquiv1 dot_S512x64_S512x64_S64x64_0_0_1_1_n_n 512 rfl rfl).symm]
  refine Finset.sum_congr rfl fun k _ => ?_
  have hk := contrEquiv1_symm_val dot_S512x64_S512x64_S64x64_0_0_1_1_n_n 512 rfl rfl k
  have el : dot_S512x64_S512x64_S64x64_0_0_1_1_n_n.lhsIdx (ix2 p q) ((contrEquiv1 dot_S512x64_S512x64_S64x64_0_0_1_1_n_n 512 rfl rfl).symm k) = ix2 k p := funext fun a => Fin.ext (by
    match a with
    | ⟨0, _⟩ => exact (dtd_l0 _ _).trans hk
    | ⟨1, _⟩ => exact dtd_l1 _ _)
  have er : dot_S512x64_S512x64_S64x64_0_0_1_1_n_n.rhsIdx (ix2 p q) ((contrEquiv1 dot_S512x64_S512x64_S64x64_0_0_1_1_n_n 512 rfl rfl).symm k) = ix2 k q := funext fun a => Fin.ext (by
    match a with
    | ⟨0, _⟩ => exact (dtd_r0 _ _).trans hk
    | ⟨1, _⟩ => exact dtd_r1 _ _)
  rw [el, er]

/-! ### `C Cᵀ` -/

theorem cct_l1 (i : S64x64.Idx) (q : dot_S64x2048_S64x2048_S64x64_1_1_0_0_n_n.contr.Idx) :
    (dot_S64x2048_S64x2048_S64x64_1_1_0_0_n_n.lhsIdx i q 1).val = (q ⟨0, by decide⟩).val :=
  dot_S64x2048_S64x2048_S64x64_1_1_0_0_n_n.lhsIdx_val_of_single rfl i q
theorem cct_l0 (i : S64x64.Idx) (q : dot_S64x2048_S64x2048_S64x64_1_1_0_0_n_n.contr.Idx) :
    (dot_S64x2048_S64x2048_S64x64_1_1_0_0_n_n.lhsIdx i q 0).val = (i 0).val := by
  unfold DotDims.lhsIdx
  rw [dif_neg (show ¬(0 : Fin S64x2048.rank) ∈ dot_S64x2048_S64x2048_S64x64_1_1_0_0_n_n.lhsBatch by decide), dif_pos (show (0 : Fin S64x2048.rank) ∈ dot_S64x2048_S64x2048_S64x64_1_1_0_0_n_n.lhsNonContracting by decide)]
  rfl
theorem cct_r1 (i : S64x64.Idx) (q : dot_S64x2048_S64x2048_S64x64_1_1_0_0_n_n.contr.Idx) :
    (dot_S64x2048_S64x2048_S64x64_1_1_0_0_n_n.rhsIdx i q 1).val = (q ⟨0, by decide⟩).val :=
  dot_S64x2048_S64x2048_S64x64_1_1_0_0_n_n.rhsIdx_val_of_single rfl i q
theorem cct_r0 (i : S64x64.Idx) (q : dot_S64x2048_S64x2048_S64x64_1_1_0_0_n_n.contr.Idx) :
    (dot_S64x2048_S64x2048_S64x64_1_1_0_0_n_n.rhsIdx i q 0).val = (i 1).val := by
  unfold DotDims.rhsIdx
  rw [dif_neg (show ¬(0 : Fin S64x2048.rank) ∈ dot_S64x2048_S64x2048_S64x64_1_1_0_0_n_n.rhsBatch by decide), dif_pos (show (0 : Fin S64x2048.rank) ∈ dot_S64x2048_S64x2048_S64x64_1_1_0_0_n_n.rhsNonContracting by decide)]
  rfl

/-- Entry `(p, q)` of the product into a zero accumulator is the sum over the contracted axis. -/
theorem cct_apply {φ₁ φ₂ : FTy} (prec : Option ContractPrecision) (L : FVec Ideal S64x2048 φ₁) (R : FVec Ideal S64x2048 φ₂) (p : Fin 64) (q : Fin 64) :
    matmul dot_S64x2048_S64x2048_S64x64_1_1_0_0_n_n prec L R (constant S64x64 .f32 0x00000000#32) (ix2 p q) = ∑ k : Fin 2048, L (ix2 p k) * R (ix2 q k) := by
  simp only [matmul]
  rw [Ideal.matmul_constant_zero_apply, ← Equiv.sum_comp (contrEquiv1 dot_S64x2048_S64x2048_S64x64_1_1_0_0_n_n 2048 rfl rfl).symm]
  refine Finset.sum_congr rfl fun k _ => ?_
  have hk := contrEquiv1_symm_val dot_S64x2048_S64x2048_S64x64_1_1_0_0_n_n 2048 rfl rfl k
  have el : dot_S64x2048_S64x2048_S64x64_1_1_0_0_n_n.lhsIdx (ix2 p q) ((contrEquiv1 dot_S64x2048_S64x2048_S64x64_1_1_0_0_n_n 2048 rfl rfl).symm k) = ix2 p k := funext fun a => Fin.ext (by
    match a with
    | ⟨1, _⟩ => exact (cct_l1 _ _).trans hk
    | ⟨0, _⟩ => exact cct_l0 _ _)
  have er : dot_S64x2048_S64x2048_S64x64_1_1_0_0_n_n.rhsIdx (ix2 p q) ((contrEquiv1 dot_S64x2048_S64x2048_S64x64_1_1_0_0_n_n 2048 rfl rfl).symm k) = ix2 q k := funext fun a => Fin.ext (by
    match a with
    | ⟨1, _⟩ => exact (cct_r1 _ _).trans hk
    | ⟨0, _⟩ => exact cct_r0 _ _)
  rw [el, er]

/-! ### a 64×64 matrix times `C` -/

theorem gc_l1 (i : S64x2048.Idx) (q : dot_S64x64_S64x2048_S64x2048_1_0_0_1_n_n.contr.Idx) :
    (dot_S64x64_S64x2048_S64x2048_1_0_0_1_n_n.lhsIdx i q 1).val = (q ⟨0, by decide⟩).val :=
  dot_S64x64_S64x2048_S64x2048_1_0_0_1_n_n.lhsIdx_val_of_single rfl i q
theorem gc_l0 (i : S64x2048.Idx) (q : dot_S64x64_S64x2048_S64x2048_1_0_0_1_n_n.contr.Idx) :
    (dot_S64x64_S64x2048_S64x2048_1_0_0_1_n_n.lhsIdx i q 0).val = (i 0).val := by
  unfold DotDims.lhsIdx
  rw [dif_neg (show ¬(0 : Fin S64x64.rank) ∈ dot_S64x64_S64x2048_S64x2048_1_0_0_1_n_n.lhsBatch by decide), dif_pos (show (0 : Fin S64x64.rank) ∈ dot_S64x64_S64x2048_S64x2048_1_0_0_1_n_n.lhsNonContracting by decide)]
  rfl
theorem gc_r0 (i : S64x2048.Idx) (q : dot_S64x64_S64x2048_S64x2048_1_0_0_1_n_n.contr.Idx) :
    (dot_S64x64_S64x2048_S64x2048_1_0_0_1_n_n.rhsIdx i q 0).val = (q ⟨0, by decide⟩).val :=
  dot_S64x64_S64x2048_S64x2048_1_0_0_1_n_n.rhsIdx_val_of_single rfl i q
theorem gc_r1 (i : S64x2048.Idx) (q : dot_S64x64_S64x2048_S64x2048_1_0_0_1_n_n.contr.Idx) :
    (dot_S64x64_S64x2048_S64x2048_1_0_0_1_n_n.rhsIdx i q 1).val = (i 1).val := by
  unfold DotDims.rhsIdx
  rw [dif_neg (show ¬(1 : Fin S64x2048.rank) ∈ dot_S64x64_S64x2048_S64x2048_1_0_0_1_n_n.rhsBatch by decide), dif_pos (show (1 : Fin S64x2048.rank) ∈ dot_S64x64_S64x2048_S64x2048_1_0_0_1_n_n.rhsNonContracting by decide)]
  rfl

/-- Entry `(p, q)` of the product into a zero accumulator is the sum over the contracted axis. -/
theorem gc_apply {φ₁ φ₂ : FTy} (prec : Option ContractPrecision) (L : FVec Ideal S64x64 φ₁) (R : FVec Ideal S64x2048 φ₂) (p : Fin 64) (q : Fin 2048) :
    matmul dot_S64x64_S64x2048_S64x2048_1_0_0_1_n_n prec L R (constant S64x2048 .f32 0x00000000#32) (ix2 p q) = ∑ k : Fin 64, L (ix2 p k) * R (ix2 k q) := by
  simp only [matmul]
  rw [Ideal.matmul_constant_zero_apply, ← Equiv.sum_comp (contrEquiv1 dot_S64x64_S64x2048_S64x2048_1_0_0_1_n_n 64 rfl rfl).symm]
  refine Finset.sum_congr rfl fun k _ => ?_
  have hk := contrEquiv1_symm_val dot_S64x64_S64x2048_S64x2048_1_0_0_1_n_n 64 rfl rfl k
  have el : dot_S64x64_S64x2048_S64x2048_1_0_0_1_n_n.lhsIdx (ix2 p q) ((contrEquiv1 dot_S64x64_S64x2048_S64x2048_1_0_0_1_n_n 64 rfl rfl).symm k) = ix2 p k := funext fun a => Fin.ext (by
    match a with
    | ⟨1, _⟩ => exact (gc_l1 _ _).trans hk
    | ⟨0, _⟩ => exact gc_l0 _ _)
  have er : dot_S64x64_S64x2048_S64x2048_1_0_0_1_n_n.rhsIdx (ix2 p q) ((contrEquiv1 dot_S64x64_S64x2048_S64x2048_1_0_0_1_n_n 64 rfl rfl).symm k) = ix2 k q := funext fun a => Fin.ext (by
    match a with
    | ⟨0, _⟩ => exact (gc_r0 _ _).trans hk
    | ⟨1, _⟩ => exact gc_r1 _ _)
  rw [el, er]

/-! ### `D` times a 64×64 matrix -/

theorem dg_l1 (i : S512x64.Idx) (q : dot_S512x64_S64x64_S512x64_1_0_0_1_n_n.contr.Idx) :
    (dot_S512x64_S64x64_S512x64_1_0_0_1_n_n.lhsIdx i q 1).val = (q ⟨0, by decide⟩).val :=
  dot_S512x64_S64x64_S512x64_1_0_0_1_n_n.lhsIdx_val_of_single rfl i q
theorem dg_l0 (i : S512x64.Idx) (q : dot_S512x64_S64x64_S512x64_1_0_0_1_n_n.contr.Idx) :
    (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
theorem dg_r0 (i : S512x64.Idx) (q : dot_S512x64_S64x64_S512x64_1_0_0_1_n_n.contr.Idx) :
    (dot_S512x64_S64x64_S512x64_1_0_0_1_n_n.rhsIdx i q 0).val = (q ⟨0, by decide⟩).val :=
  dot_S512x64_S64x64_S512x64_1_0_0_1_n_n.rhsIdx_val_of_single rfl i q
theorem dg_r1 (i : S512x64.Idx) (q : dot_S512x64_S64x64_S512x64_1_0_0_1_n_n.contr.Idx) :
    (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl

/-- Entry `(p, q)` of the product into a zero accumulator is the sum over the contracted axis. -/
theorem dg_apply {φ₁ φ₂ : FTy} (prec : Option ContractPrecision) (L : FVec Ideal S512x64 φ₁) (R : FVec Ideal S64x64 φ₂) (p : Fin 512) (q : Fin 64) :
    matmul dot_S512x64_S64x64_S512x64_1_0_0_1_n_n prec L R (constant S512x64 .f32 0x00000000#32) (ix2 p q) = ∑ k : Fin 64, L (ix2 p k) * R (ix2 k q) := by
  simp only [matmul]
  rw [Ideal.matmul_constant_zero_apply, ← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 p q) ((contrEquiv1 dot_S512x64_S64x64_S512x64_1_0_0_1_n_n 64 rfl rfl).symm k) = ix2 p k := funext fun a => Fin.ext (by
    match a with
    | ⟨1, _⟩ => exact (dg_l1 _ _).trans hk
    | ⟨0, _⟩ => exact dg_l0 _ _)
  have er : dot_S512x64_S64x64_S512x64_1_0_0_1_n_n.rhsIdx (ix2 p q) ((contrEquiv1 dot_S512x64_S64x64_S512x64_1_0_0_1_n_n 64 rfl rfl).symm k) = ix2 k q := funext fun a => Fin.ext (by
    match a with
    | ⟨0, _⟩ => exact (dg_r0 _ _).trans hk
    | ⟨1, _⟩ => exact dg_r1 _ _)
  rw [el, er]

/-! ### `D C` -/

theorem dc_l1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem dc_l0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem dc_r0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem dc_r1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Entry `(p, q)` of the product into a zero accumulator is the sum over the contracted axis. -/
theorem dc_apply {φ₁ φ₂ : FTy} (prec : Option ContractPrecision) (L : FVec Ideal S512x64 φ₁) (R : FVec Ideal S64x2048 φ₂) (p : Fin 512) (q : Fin 2048) :
    matmul dot_S512x64_S64x2048_S512x2048_1_0_0_1_n_n prec L R (constant S512x2048 .f32 0x00000000#32) (ix2 p q) = ∑ k : Fin 64, L (ix2 p k) * R (ix2 k q) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p q) ((contrEquiv1 dot_S512x64_S64x2048_S512x2048_1_0_0_1_n_n 64 rfl rfl).symm k) = ix2 p k := funext fun a => Fin.ext (by
    match a with
    | ⟨1, _⟩ => exact (dc_l1 _ _).trans hk
    | ⟨0, _⟩ => exact dc_l0 _ _)
  have er : dot_S512x64_S64x2048_S512x2048_1_0_0_1_n_n.rhsIdx (ix2 p q) ((contrEquiv1 dot_S512x64_S64x2048_S512x2048_1_0_0_1_n_n 64 rfl rfl).symm k) = ix2 k q := funext fun a => Fin.ext (by
    match a with
    | ⟨0, _⟩ => exact (dc_r0 _ _).trans hk
    | ⟨1, _⟩ => exact dc_r1 _ _)
  rw [el, er]

/-! ## One round on vectors, as the body spells it -/

/-- The coefficient update `C ⊙ (Dᵀ X) ⊘ ((Dᵀ D) C + ε)`. -/
def vC (X : FVec Ideal S512x2048 .bf16) (D : FVec Ideal S512x64 .f32) (C : FVec Ideal S64x2048 .f32) : FVec Ideal S64x2048 .f32 :=
  mulf C (divf (matmul dot_S512x64_S512x2048_S64x2048_0_0_1_1_n_n none (truncf .bf16 D bitsLt_bf16_f32) X (constant S64x2048 .f32 0x00000000#32))
    (addf (matmul dot_S64x64_S64x2048_S64x2048_1_0_0_1_n_n none
        (truncf .bf16 (matmul dot_S512x64_S512x64_S64x64_0_0_1_1_n_n (some .fp32) D D (constant S64x64 .f32 0x00000000#32)) bitsLt_bf16_f32) (truncf .bf16 C bitsLt_bf16_f32) (constant S64x2048 .f32 0x00000000#32))
      (broadcast S64x2048 (Scalar.ofBits .f32 0x32ABCC77#32))))

/-- The basis update `D ⊙ (X Cᵀ) ⊘ (D (C Cᵀ) + ε)`. -/
def vD (X : FVec Ideal S512x2048 .bf16) (D : FVec Ideal S512x64 .f32) (C : FVec Ideal S64x2048 .f32) : FVec Ideal S512x64 .f32 :=
  mulf D (divf (matmul dot_S512x2048_S64x2048_S512x64_1_1_0_0_n_n none X (truncf .bf16 C bitsLt_bf16_f32) (constant S512x64 .f32 0x00000000#32))
    (addf (matmul dot_S512x64_S64x64_S512x64_1_0_0_1_n_n none (truncf .bf16 D bitsLt_bf16_f32)
        (truncf .bf16 (matmul dot_S64x2048_S64x2048_S64x64_1_1_0_0_n_n (some .fp32) C C (constant S64x64 .f32 0x00000000#32)) bitsLt_bf16_f32) (constant S512x64 .f32 0x00000000#32))
      (broadcast S512x64 (Scalar.ofBits .f32 0x32ABCC77#32))))

theorem vC_mat (X : FVec Ideal S512x2048 .bf16) (D : FVec Ideal S512x64 .f32) (C : FVec Ideal S64x2048 .f32) :
    mat (vC X D C) = updC eps (mat X) (mat D) (mat C) := by
  funext r n
  show C (ix2 r n) * Ideal.div (matmul dot_S512x64_S512x2048_S64x2048_0_0_1_1_n_n none (truncf .bf16 D bitsLt_bf16_f32) X (constant S64x2048 .f32 0x00000000#32) (ix2 r n))
      (matmul dot_S64x64_S64x2048_S64x2048_1_0_0_1_n_n none
        (truncf .bf16 (matmul dot_S512x64_S512x64_S64x64_0_0_1_1_n_n (some .fp32) D D (constant S64x64 .f32 0x00000000#32)) bitsLt_bf16_f32) (truncf .bf16 C bitsLt_bf16_f32) (constant S64x2048 .f32 0x00000000#32) (ix2 r n) + eps) = _
  rw [dtx_apply, gc_apply]
  simp only [truncf_apply, dtd_apply]
  rfl

theorem vD_mat (X : FVec Ideal S512x2048 .bf16) (D : FVec Ideal S512x64 .f32) (C : FVec Ideal S64x2048 .f32) :
    mat (vD X D C) = updDk eps (mat X) (mat D) (mat C) := by
  funext d r
  show D (ix2 d r) * Ideal.div (matmul dot_S512x2048_S64x2048_S512x64_1_1_0_0_n_n none X (truncf .bf16 C bitsLt_bf16_f32) (constant S512x64 .f32 0x00000000#32) (ix2 d r))
      (matmul dot_S512x64_S64x64_S512x64_1_0_0_1_n_n none (truncf .bf16 D bitsLt_bf16_f32)
        (truncf .bf16 (matmul dot_S64x2048_S64x2048_S64x64_1_1_0_0_n_n (some .fp32) C C (constant S64x64 .f32 0x00000000#32)) bitsLt_bf16_f32) (constant S512x64 .f32 0x00000000#32) (ix2 d r) + eps) = _
  rw [xct_apply, dg_apply]
  simp only [truncf_apply, cct_apply]
  rfl

/-- One round on the pair of factors. -/
def kround (X : FVec Ideal S512x2048 .bf16) (p : FVec Ideal S512x64 .f32 × FVec Ideal S64x2048 .f32) :
    FVec Ideal S512x64 .f32 × FVec Ideal S64x2048 .f32 := (vD X p.1 p.2, vC X p.1 p.2)

/-- The pair of factors as matrices. -/
def matp (p : FVec Ideal S512x64 .f32 × FVec Ideal S64x2048 .f32) : (Fin 512 → Fin 64 → EReal) × (Fin 64 → Fin 2048 → EReal) :=
  (mat p.1, mat p.2)

theorem kround_matp (X : FVec Ideal S512x2048 .bf16) (p : FVec Ideal S512x64 .f32 × FVec Ideal S64x2048 .f32) :
    matp (kround X p) = stepK eps (mat X) (matp p) :=
  Prod.ext (vD_mat X p.1 p.2) (vC_mat X p.1 p.2)

/-- Six rounds. -/
def six (X : FVec Ideal S512x2048 .bf16) (p : FVec Ideal S512x64 .f32 × FVec Ideal S64x2048 .f32) :
    FVec Ideal S512x64 .f32 × FVec Ideal S64x2048 .f32 :=
  kround X (kround X (kround X (kround X (kround X (kround X p)))))

theorem six_matp (X : FVec Ideal S512x2048 .bf16) (p : FVec Ideal S512x64 .f32 × FVec Ideal S64x2048 .f32) :
    matp (six X p) = (stepK eps (mat X))^[6] (matp p) := by
  unfold six
  simp only [kround_matp]
  rfl

/-! ## The data block and the stored product -/

/-- The data the rounds use: the block with its unit axis dropped, rectified. -/
theorem data_apply (x0 : Vec Ideal S1x512x2048 .f32) (p : Fin 512) (q : Fin 2048) :
    mat (k0_pay2 x0) p q = max (x0 (ix3 (0 : Fin 1) p q)) 0 := by
  show max (shapeCast S512x2048 x0 shapeCasts_S1x512x2048_S512x2048 (ix2 p q)) (Ideal.ofBits .f32 0x00000000#32) = _
  rw [shapeCast_1ab_ab_apply, Ideal.ofBits_zero_f32]

/-- What the body stores, from the last factors: `D C` under a leading unit axis. -/
theorem stored_apply (p : FVec Ideal S512x64 .f32 × FVec Ideal S64x2048 .f32) (u : Fin 1) (a : Fin 512) (b : Fin 2048) :
    k0_pay1 (truncf .bf16 p.1 bitsLt_bf16_f32) (truncf .bf16 p.2 bitsLt_bf16_f32) (ix3 u a b) = prod (matp p).1 (matp p).2 a b := by
  show shapeCast S1x512x2048 (matmul dot_S512x64_S64x2048_S512x2048_1_0_0_1_n_n none (truncf .bf16 p.1 bitsLt_bf16_f32) (truncf .bf16 p.2 bitsLt_bf16_f32) (constant S512x2048 .f32 0x00000000#32)) shapeCasts_S512x2048_S1x512x2048 (ix3 u a b) = _
  rw [shapeCast_ab_1ab_apply, dc_apply]
  rfl

end Cert.KernelIdeal.Round

end
-- ==== Proof.KernelValue.lean ====
/-
  The kernel's result array, entry by entry.

  The grid has one point per batch slice; point `t` stages slice `t` of `x` (a 1×512×2048 block), the whole of `D` and of `C`, and
  writes slice `t` of the result.  The block a point writes back is what its body stores: six rounds from `(D, C)` over
  `max(x_t, 0)`, then the product of the factors.  Blocks of distinct points are disjoint, so slice `t` of the final array is what
  point `t` wrote; read at an entry with the round lemmas, it is `(D₆ C₆)[a, b]` for the six rounds of the shared mathematics
  (divisor bracketed as `D (C Cᵀ)`) over the rectified slice.
-/
import proofs.«117164_j8220567404862_2_alg».proof.Proof.Gen.KernelIdeal.Value
import proofs.«117164_j8220567404862_2_alg».proof.Proof.KernelRound
import Idealize.ShloMosaic.Lib.Pipeline.Value

noncomputable section

namespace Cert.KernelIdeal.Entry

open Cert.KernelIdeal Cert.KernelIdeal.Gen Cert.KernelIdeal.Round Cert.Nmf
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays on core `c`, as plain functions of an index. -/
abbrev AX (c : Dev nD) : S32x512x2048.Idx → EReal := m ((c : Thread nD τ).loc main_arg0)
abbrev AD (c : Dev nD) : S512x64.Idx → EReal := m ((c : Thread nD τ).loc main_arg1)
abbrev AC (c : Dev nD) : S64x2048.Idx → EReal := m ((c : Thread nD τ).loc main_arg2)

theorem hz3 : (![0, 0, 0] : Fin 3 → Nat) = fun _ => 0 := funext fun a => by fin_cases a <;> rfl
theorem hz2 : (![0, 0] : Fin 2 → Nat) = fun _ => 0 := funext fun a => by fin_cases a <;> rfl

/-- The output block after the body, as a function of the three blocks it loads: six rounds, then the product (the body's named
    pieces unfold to exactly this composition). -/
theorem out_eq (x0 : Vec Ideal S1x512x2048 .f32) (x1 : Vec Ideal S512x64 .f32) (x2 : Vec Ideal S64x2048 .f32) :
    out0_3 x0 x1 x2 = k0_pay1 (truncf .bf16 (six (k0_pay2 x0) (x1, x2)).1 bitsLt_bf16_f32) (truncf .bf16 (six (k0_pay2 x0) (x1, x2)).2 bitsLt_bf16_f32) := by
  unfold out0_3
  rw [View.canon_unit_zero hz3]
  simp only [View.ld_unit_zero (S := S1x512x2048) hz3, View.ld_unit_zero (S := S512x64) hz2, View.ld_unit_zero (S := S64x2048) hz2]
  rfl

/-- The printed block maps over the grid: point `t` takes slice `t` of `x` and of the result, and all of `D` and `C`. -/
theorem idx_facts : ∀ t : Fin cfg0.N, win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Entry `(0, a, b)` of point `t`'s result block sits at `(t, a, b)` of the result array. -/
theorem emb_out (t : Fin cfg0.N) (a : Fin 512) (b : Fin 2048) :
    ((cfg0.win 3).blk t).view.emb (ix3 (0 : Fin 1) a b) = ix3 (t.cast N_0) a b := by
  obtain ⟨e0, e1, e2, -⟩ := idx_facts t
  funext k; apply Fin.ext
  match k with
  | ⟨0, _⟩ => show win0_3.index t (0 : Fin 3) * 1 + 1 * 0 = t.val; omega
  | ⟨1, _⟩ => show win0_3.index t (1 : Fin 3) * 512 + 1 * a.val = a.val; omega
  | ⟨2, _⟩ => show win0_3.index t (2 : Fin 3) * 2048 + 1 * b.val = b.val; omega

/-- The same for the data block. -/
theorem emb_x (t : Fin cfg0.N) (a : Fin 512) (b : Fin 2048) :
    ((cfg0.win 0).blk t).view.emb (ix3 (0 : Fin 1) a b) = ix3 (t.cast N_0) a b := by
  obtain ⟨-, -, -, e0, e1, e2, -⟩ := idx_facts t
  funext k; apply Fin.ext
  match k with
  | ⟨0, _⟩ => show win0_0.index t (0 : Fin 3) * 1 + 1 * 0 = t.val; omega
  | ⟨1, _⟩ => show win0_0.index t (1 : Fin 3) * 512 + 1 * a.val = a.val; omega
  | ⟨2, _⟩ => show win0_0.index t (2 : Fin 3) * 2048 + 1 * b.val = b.val; omega

/-- The block of `D` is all of `D`. -/
theorem iblk_D (c : Dev nD) (t : Fin cfg0.N) : iblk m c 1 t = V m c main_arg1 := by
  obtain ⟨-, -, -, -, -, -, e0, e1, -⟩ := idx_facts t
  funext y
  show V m c main_arg1 (((cfg0.win 1).blk t).view.emb y) = V m c main_arg1 y
  refine congrArg _ (funext fun k => Fin.ext ?_)
  match k with
  | ⟨0, _⟩ => show win0_1.index t (0 : Fin 2) * 512 + 1 * (y 0).val = (y 0).val; omega
  | ⟨1, _⟩ => show win0_1.index t (1 : Fin 2) * 64 + 1 * (y 1).val = (y 1).val; omega

/-- The block of `C` is all of `C`. -/
theorem iblk_C (c : Dev nD) (t : Fin cfg0.N) : iblk m c 2 t = V m c main_arg2 := by
  obtain ⟨-, -, -, -, -, -, -, -, e0, e1⟩ := idx_facts t
  funext y
  show V m c main_arg2 (((cfg0.win 2).blk t).view.emb y) = V m c main_arg2 y
  refine congrArg _ (funext fun k => Fin.ext ?_)
  match k with
  | ⟨0, _⟩ => show win0_2.index t (0 : Fin 2) * 64 + 1 * (y 0).val = (y 0).val; omega
  | ⟨1, _⟩ => show win0_2.index t (1 : Fin 2) * 2048 + 1 * (y 1).val = (y 1).val; omega

/-- The data the rounds of point `t` use: slice `t` of `x`, rectified. -/
theorem data_eq (c : Dev nD) (t : Fin cfg0.N) :
    mat (k0_pay2 (iblk m c 0 t)) = fun p q => max (AX m c (ix3 (t.cast N_0) p q)) 0 := by
  funext p q
  rw [data_apply]
  show max (AX m c (((cfg0.win 0).blk t).view.emb (ix3 (0 : Fin 1) p q))) 0 = _
  rw [emb_x]

/-- ENTRY `(t, a, b)` OF THE RESULT ARRAY after the run: `(D₆ C₆)[a, b]`, the factors after six rounds over the rectified slice `t`. -/
theorem arr_apply (c : Dev nD) (t : Fin cfg0.N) (a : Fin 512) (b : Fin 2048) :
    (dats m 0 c).arrAt 3 cfg0.N (ix3 (t.cast N_0) a b)
      = prod ((stepK eps (fun p q => max (AX m c (ix3 (t.cast N_0) p q)) 0))^[6] (mat (AD m c), mat (AC m c))).1
          ((stepK eps (fun p q => max (AX m c (ix3 (t.cast N_0) p q)) 0))^[6] (mat (AD m c), mat (AC m c))).2 a b := by
  have hb := congrFun (Value.blocks3 m c t (flush0_3 t)) (ix3 (0 : Fin 1) a b)
  have h1 : ((cfg0.win 3).blk t).view.read (Elt Ideal) ((dats m 0 c).arrAt 3 cfg0.N) (ix3 (0 : Fin 1) a b)
      = (dats m 0 c).arrAt 3 cfg0.N (ix3 (t.cast N_0) a b) := by
    show (dats m 0 c).arrAt 3 cfg0.N (((cfg0.win 3).blk t).view.emb (ix3 (0 : Fin 1) a b)) = _
    rw [emb_out]
  rw [← h1, hb, Value.flushed3, out_eq]
  show k0_pay1 _ _ (ix3 (0 : Fin 1) a b) = _
  rw [stored_apply, six_matp, data_eq, iblk_D, iblk_C]
  rfl

/-- The same with the slice named by its number among the 32. -/
theorem arr_apply32 (c : Dev nD) (t : Fin 32) (a : Fin 512) (b : Fin 2048) :
    (dats m 0 c).arrAt 3 cfg0.N (ix3 t a b)
      = prod ((stepK eps (fun p q => max (AX m c (ix3 t p q)) 0))^[6] (mat (AD m c), mat (AC m c))).1
          ((stepK eps (fun p q => max (AX m c (ix3 t p q)) 0))^[6] (mat (AD m c), mat (AC m c))).2 a b :=
  arr_apply m c (t.cast N_0.symm) a b

end Cert.KernelIdeal.Entry

end
-- ==== Proof.RefRound.lean ====
/-
  One round of the reference, read slice by slice.

  The reference carries the factors repeated along a batch axis of 32 and makes its products batched; slice `t` of every array in
  a round depends on slice `t` of its operands only.  Read at slice `t`, one round is
  `C ← C ⊙ (Dᵀ X) ⊘ ((Dᵀ D) C + ε)`, `D ← D ⊙ (X Cᵀ) ⊘ ((D C) Cᵀ + ε)` on matrices — the update of the shared mathematics with the
  divisor bracketed as `(D C) Cᵀ` — and the result is `D C` after six rounds from the unrepeated factors over the rectified slice.
-/
import proofs.«117164_j8220567404862_2_alg».proof.Proof.RefRun
import proofs.«117164_j8220567404862_2_alg».proof.Proof.NonnegLaw
import proofs.«117164_j8220567404862_2_alg».proof.Proof.Eps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Round

open Idealize.ShloMosaic Idealize.ShloMosaic.ValueIdx Cert.ReferenceIdeal Cert.ReferenceIdeal.Gen Cert.ReferenceIdeal.ValueP Cert.Nmf

/-! ## The five batched products at an entry -/

/-! ### `Dᵀ X`, slice by slice -/

theorem dtx3_l0 (i : S32x64x2048.Idx) (q : dot_S32x64x512_S32x512x2048_S32x64x2048_2_1_1_2_0_0.contr.Idx) : (dot_S32x64x512_S32x512x2048_S32x64x2048_2_1_1_2_0_0.lhsIdx i q 0).val = (i 0).val := by
  unfold DotDims.lhsIdx
  rw [dif_pos (show (0 : Fin S32x64x512.rank) ∈ dot_S32x64x512_S32x512x2048_S32x64x2048_2_1_1_2_0_0.lhsBatch by decide)]
  rfl
theorem dtx3_l1 (i : S32x64x2048.Idx) (q : dot_S32x64x512_S32x512x2048_S32x64x2048_2_1_1_2_0_0.contr.Idx) : (dot_S32x64x512_S32x512x2048_S32x64x2048_2_1_1_2_0_0.lhsIdx i q 1).val = (i 1).val := by
  unfold DotDims.lhsIdx
  rw [dif_neg (show ¬(1 : Fin S32x64x512.rank) ∈ dot_S32x64x512_S32x512x2048_S32x64x2048_2_1_1_2_0_0.lhsBatch by decide), dif_pos (show (1 : Fin S32x64x512.rank) ∈ dot_S32x64x512_S32x512x2048_S32x64x2048_2_1_1_2_0_0.lhsNonContracting by decide)]
  rfl
theorem dtx3_l2 (i : S32x64x2048.Idx) (q : dot_S32x64x512_S32x512x2048_S32x64x2048_2_1_1_2_0_0.contr.Idx) : (dot_S32x64x512_S32x512x2048_S32x64x2048_2_1_1_2_0_0.lhsIdx i q 2).val = (q ⟨0, by decide⟩).val :=
  dot_S32x64x512_S32x512x2048_S32x64x2048_2_1_1_2_0_0.lhsIdx_val_of_single rfl i q
theorem dtx3_r0 (i : S32x64x2048.Idx) (q : dot_S32x64x512_S32x512x2048_S32x64x2048_2_1_1_2_0_0.contr.Idx) : (dot_S32x64x512_S32x512x2048_S32x64x2048_2_1_1_2_0_0.rhsIdx i q 0).val = (i 0).val := by
  unfold DotDims.rhsIdx
  rw [dif_pos (show (0 : Fin S32x512x2048.rank) ∈ dot_S32x64x512_S32x512x2048_S32x64x2048_2_1_1_2_0_0.rhsBatch by decide)]
  rfl
theorem dtx3_r1 (i : S32x64x2048.Idx) (q : dot_S32x64x512_S32x512x2048_S32x64x2048_2_1_1_2_0_0.contr.Idx) : (dot_S32x64x512_S32x512x2048_S32x64x2048_2_1_1_2_0_0.rhsIdx i q 1).val = (q ⟨0, by decide⟩).val :=
  dot_S32x64x512_S32x512x2048_S32x64x2048_2_1_1_2_0_0.rhsIdx_val_of_single rfl i q
theorem dtx3_r2 (i : S32x64x2048.Idx) (q : dot_S32x64x512_S32x512x2048_S32x64x2048_2_1_1_2_0_0.contr.Idx) : (dot_S32x64x512_S32x512x2048_S32x64x2048_2_1_1_2_0_0.rhsIdx i q 2).val = (i 2).val := by
  unfold DotDims.rhsIdx
  rw [dif_neg (show ¬(2 : Fin S32x512x2048.rank) ∈ dot_S32x64x512_S32x512x2048_S32x64x2048_2_1_1_2_0_0.rhsBatch by decide), dif_pos (show (2 : Fin S32x512x2048.rank) ∈ dot_S32x64x512_S32x512x2048_S32x64x2048_2_1_1_2_0_0.rhsNonContracting by decide)]
  rfl

/-- Entry `(t, p, q)` of the batched product is the sum over the contracted axis within slice `t`. -/
theorem dtx3_apply (L : FVec Ideal S32x64x512 .f32) (R : FVec Ideal S32x512x2048 .f32) (t : Fin 32) (p : Fin 64) (q : Fin 2048) :
    Host.dotGeneral dot_S32x64x512_S32x512x2048_S32x64x2048_2_1_1_2_0_0 none L R (ix3 t p q) = ∑ k : Fin 512, L (ix3 t p k) * R (ix3 t k q) := by
  simp only [Host.dotGeneral]
  rw [Ideal.dotGeneral_apply, ← Equiv.sum_comp (contrEquiv1 dot_S32x64x512_S32x512x2048_S32x64x2048_2_1_1_2_0_0 512 rfl rfl).symm]
  refine Finset.sum_congr rfl fun k _ => ?_
  have hk := contrEquiv1_symm_val dot_S32x64x512_S32x512x2048_S32x64x2048_2_1_1_2_0_0 512 rfl rfl k
  have el : dot_S32x64x512_S32x512x2048_S32x64x2048_2_1_1_2_0_0.lhsIdx (ix3 t p q) ((contrEquiv1 dot_S32x64x512_S32x512x2048_S32x64x2048_2_1_1_2_0_0 512 rfl rfl).symm k) = ix3 t p k := funext fun a => Fin.ext (by
    match a with
    | ⟨0, _⟩ => exact dtx3_l0 _ _
    | ⟨1, _⟩ => exact dtx3_l1 _ _
    | ⟨2, _⟩ => exact (dtx3_l2 _ _).trans hk)
  have er : dot_S32x64x512_S32x512x2048_S32x64x2048_2_1_1_2_0_0.rhsIdx (ix3 t p q) ((contrEquiv1 dot_S32x64x512_S32x512x2048_S32x64x2048_2_1_1_2_0_0 512 rfl rfl).symm k) = ix3 t k q := funext fun a => Fin.ext (by
    match a with
    | ⟨0, _⟩ => exact dtx3_r0 _ _
    | ⟨1, _⟩ => exact (dtx3_r1 _ _).trans hk
    | ⟨2, _⟩ => exact dtx3_r2 _ _)
  rw [el, er]

/-! ### `Dᵀ D`, slice by slice -/

theorem dtd3_l0 (i : S32x64x64.Idx) (q : dot_S32x64x512_S32x512x64_S32x64x64_2_1_1_2_0_0.contr.Idx) : (dot_S32x64x512_S32x512x64_S32x64x64_2_1_1_2_0_0.lhsIdx i q 0).val = (i 0).val := by
  unfold DotDims.lhsIdx
  rw [dif_pos (show (0 : Fin S32x64x512.rank) ∈ dot_S32x64x512_S32x512x64_S32x64x64_2_1_1_2_0_0.lhsBatch by decide)]
  rfl
theorem dtd3_l1 (i : S32x64x64.Idx) (q : dot_S32x64x512_S32x512x64_S32x64x64_2_1_1_2_0_0.contr.Idx) : (dot_S32x64x512_S32x512x64_S32x64x64_2_1_1_2_0_0.lhsIdx i q 1).val = (i 1).val := by
  unfold DotDims.lhsIdx
  rw [dif_neg (show ¬(1 : Fin S32x64x512.rank) ∈ dot_S32x64x512_S32x512x64_S32x64x64_2_1_1_2_0_0.lhsBatch by decide), dif_pos (show (1 : Fin S32x64x512.rank) ∈ dot_S32x64x512_S32x512x64_S32x64x64_2_1_1_2_0_0.lhsNonContracting by decide)]
  rfl
theorem dtd3_l2 (i : S32x64x64.Idx) (q : dot_S32x64x512_S32x512x64_S32x64x64_2_1_1_2_0_0.contr.Idx) : (dot_S32x64x512_S32x512x64_S32x64x64_2_1_1_2_0_0.lhsIdx i q 2).val = (q ⟨0, by decide⟩).val :=
  dot_S32x64x512_S32x512x64_S32x64x64_2_1_1_2_0_0.lhsIdx_val_of_single rfl i q
theorem dtd3_r0 (i : S32x64x64.Idx) (q : dot_S32x64x512_S32x512x64_S32x64x64_2_1_1_2_0_0.contr.Idx) : (dot_S32x64x512_S32x512x64_S32x64x64_2_1_1_2_0_0.rhsIdx i q 0).val = (i 0).val := by
  unfold DotDims.rhsIdx
  rw [dif_pos (show (0 : Fin S32x512x64.rank) ∈ dot_S32x64x512_S32x512x64_S32x64x64_2_1_1_2_0_0.rhsBatch by decide)]
  rfl
theorem dtd3_r1 (i : S32x64x64.Idx) (q : dot_S32x64x512_S32x512x64_S32x64x64_2_1_1_2_0_0.contr.Idx) : (dot_S32x64x512_S32x512x64_S32x64x64_2_1_1_2_0_0.rhsIdx i q 1).val = (q ⟨0, by decide⟩).val :=
  dot_S32x64x512_S32x512x64_S32x64x64_2_1_1_2_0_0.rhsIdx_val_of_single rfl i q
theorem dtd3_r2 (i : S32x64x64.Idx) (q : dot_S32x64x512_S32x512x64_S32x64x64_2_1_1_2_0_0.contr.Idx) : (dot_S32x64x512_S32x512x64_S32x64x64_2_1_1_2_0_0.rhsIdx i q 2).val = (i 2).val := by
  unfold DotDims.rhsIdx
  rw [dif_neg (show ¬(2 : Fin S32x512x64.rank) ∈ dot_S32x64x512_S32x512x64_S32x64x64_2_1_1_2_0_0.rhsBatch by decide), dif_pos (show (2 : Fin S32x512x64.rank) ∈ dot_S32x64x512_S32x512x64_S32x64x64_2_1_1_2_0_0.rhsNonContracting by decide)]
  rfl

/-- Entry `(t, p, q)` of the batched product is the sum over the contracted axis within slice `t`. -/
theorem dtd3_apply (L : FVec Ideal S32x64x512 .f32) (R : FVec Ideal S32x512x64 .f32) (t : Fin 32) (p : Fin 64) (q : Fin 64) :
    Host.dotGeneral dot_S32x64x512_S32x512x64_S32x64x64_2_1_1_2_0_0 none L R (ix3 t p q) = ∑ k : Fin 512, L (ix3 t p k) * R (ix3 t k q) := by
  simp only [Host.dotGeneral]
  rw [Ideal.dotGeneral_apply, ← Equiv.sum_comp (contrEquiv1 dot_S32x64x512_S32x512x64_S32x64x64_2_1_1_2_0_0 512 rfl rfl).symm]
  refine Finset.sum_congr rfl fun k _ => ?_
  have hk := contrEquiv1_symm_val dot_S32x64x512_S32x512x64_S32x64x64_2_1_1_2_0_0 512 rfl rfl k
  have el : dot_S32x64x512_S32x512x64_S32x64x64_2_1_1_2_0_0.lhsIdx (ix3 t p q) ((contrEquiv1 dot_S32x64x512_S32x512x64_S32x64x64_2_1_1_2_0_0 512 rfl rfl).symm k) = ix3 t p k := funext fun a => Fin.ext (by
    match a with
    | ⟨0, _⟩ => exact dtd3_l0 _ _
    | ⟨1, _⟩ => exact dtd3_l1 _ _
    | ⟨2, _⟩ => exact (dtd3_l2 _ _).trans hk)
  have er : dot_S32x64x512_S32x512x64_S32x64x64_2_1_1_2_0_0.rhsIdx (ix3 t p q) ((contrEquiv1 dot_S32x64x512_S32x512x64_S32x64x64_2_1_1_2_0_0 512 rfl rfl).symm k) = ix3 t k q := funext fun a => Fin.ext (by
    match a with
    | ⟨0, _⟩ => exact dtd3_r0 _ _
    | ⟨1, _⟩ => exact (dtd3_r1 _ _).trans hk
    | ⟨2, _⟩ => exact dtd3_r2 _ _)
  rw [el, er]

/-! ### a 64×64 matrix times `C`, slice by slice -/

theorem gc3_l0 (i : S32x64x2048.Idx) (q : dot_S32x64x64_S32x64x2048_S32x64x2048_2_1_1_2_0_0.contr.Idx) : (dot_S32x64x64_S32x64x2048_S32x64x2048_2_1_1_2_0_0.lhsIdx i q 0).val = (i 0).val := by
  unfold DotDims.lhsIdx
  rw [dif_pos (show (0 : Fin S32x64x64.rank) ∈ dot_S32x64x64_S32x64x2048_S32x64x2048_2_1_1_2_0_0.lhsBatch by decide)]
  rfl
theorem gc3_l1 (i : S32x64x2048.Idx) (q : dot_S32x64x64_S32x64x2048_S32x64x2048_2_1_1_2_0_0.contr.Idx) : (dot_S32x64x64_S32x64x2048_S32x64x2048_2_1_1_2_0_0.lhsIdx i q 1).val = (i 1).val := by
  unfold DotDims.lhsIdx
  rw [dif_neg (show ¬(1 : Fin S32x64x64.rank) ∈ dot_S32x64x64_S32x64x2048_S32x64x2048_2_1_1_2_0_0.lhsBatch by decide), dif_pos (show (1 : Fin S32x64x64.rank) ∈ dot_S32x64x64_S32x64x2048_S32x64x2048_2_1_1_2_0_0.lhsNonContracting by decide)]
  rfl
theorem gc3_l2 (i : S32x64x2048.Idx) (q : dot_S32x64x64_S32x64x2048_S32x64x2048_2_1_1_2_0_0.contr.Idx) : (dot_S32x64x64_S32x64x2048_S32x64x2048_2_1_1_2_0_0.lhsIdx i q 2).val = (q ⟨0, by decide⟩).val :=
  dot_S32x64x64_S32x64x2048_S32x64x2048_2_1_1_2_0_0.lhsIdx_val_of_single rfl i q
theorem gc3_r0 (i : S32x64x2048.Idx) (q : dot_S32x64x64_S32x64x2048_S32x64x2048_2_1_1_2_0_0.contr.Idx) : (dot_S32x64x64_S32x64x2048_S32x64x2048_2_1_1_2_0_0.rhsIdx i q 0).val = (i 0).val := by
  unfold DotDims.rhsIdx
  rw [dif_pos (show (0 : Fin S32x64x2048.rank) ∈ dot_S32x64x64_S32x64x2048_S32x64x2048_2_1_1_2_0_0.rhsBatch by decide)]
  rfl
theorem gc3_r1 (i : S32x64x2048.Idx) (q : dot_S32x64x64_S32x64x2048_S32x64x2048_2_1_1_2_0_0.contr.Idx) : (dot_S32x64x64_S32x64x2048_S32x64x2048_2_1_1_2_0_0.rhsIdx i q 1).val = (q ⟨0, by decide⟩).val :=
  dot_S32x64x64_S32x64x2048_S32x64x2048_2_1_1_2_0_0.rhsIdx_val_of_single rfl i q
theorem gc3_r2 (i : S32x64x2048.Idx) (q : dot_S32x64x64_S32x64x2048_S32x64x2048_2_1_1_2_0_0.contr.Idx) : (dot_S32x64x64_S32x64x2048_S32x64x2048_2_1_1_2_0_0.rhsIdx i q 2).val = (i 2).val := by
  unfold DotDims.rhsIdx
  rw [dif_neg (show ¬(2 : Fin S32x64x2048.rank) ∈ dot_S32x64x64_S32x64x2048_S32x64x2048_2_1_1_2_0_0.rhsBatch by decide), dif_pos (show (2 : Fin S32x64x2048.rank) ∈ dot_S32x64x64_S32x64x2048_S32x64x2048_2_1_1_2_0_0.rhsNonContracting by decide)]
  rfl

/-- Entry `(t, p, q)` of the batched product is the sum over the contracted axis within slice `t`. -/
theorem gc3_apply (L : FVec Ideal S32x64x64 .f32) (R : FVec Ideal S32x64x2048 .f32) (t : Fin 32) (p : Fin 64) (q : Fin 2048) :
    Host.dotGeneral dot_S32x64x64_S32x64x2048_S32x64x2048_2_1_1_2_0_0 none L R (ix3 t p q) = ∑ k : Fin 64, L (ix3 t p k) * R (ix3 t k q) := by
  simp only [Host.dotGeneral]
  rw [Ideal.dotGeneral_apply, ← Equiv.sum_comp (contrEquiv1 dot_S32x64x64_S32x64x2048_S32x64x2048_2_1_1_2_0_0 64 rfl rfl).symm]
  refine Finset.sum_congr rfl fun k _ => ?_
  have hk := contrEquiv1_symm_val dot_S32x64x64_S32x64x2048_S32x64x2048_2_1_1_2_0_0 64 rfl rfl k
  have el : dot_S32x64x64_S32x64x2048_S32x64x2048_2_1_1_2_0_0.lhsIdx (ix3 t p q) ((contrEquiv1 dot_S32x64x64_S32x64x2048_S32x64x2048_2_1_1_2_0_0 64 rfl rfl).symm k) = ix3 t p k := funext fun a => Fin.ext (by
    match a with
    | ⟨0, _⟩ => exact gc3_l0 _ _
    | ⟨1, _⟩ => exact gc3_l1 _ _
    | ⟨2, _⟩ => exact (gc3_l2 _ _).trans hk)
  have er : dot_S32x64x64_S32x64x2048_S32x64x2048_2_1_1_2_0_0.rhsIdx (ix3 t p q) ((contrEquiv1 dot_S32x64x64_S32x64x2048_S32x64x2048_2_1_1_2_0_0 64 rfl rfl).symm k) = ix3 t k q := funext fun a => Fin.ext (by
    match a with
    | ⟨0, _⟩ => exact gc3_r0 _ _
    | ⟨1, _⟩ => exact (gc3_r1 _ _).trans hk
    | ⟨2, _⟩ => exact gc3_r2 _ _)
  rw [el, er]

/-! ### a 512×2048 matrix times `Cᵀ`, slice by slice -/

theorem xct3_l0 (i : S32x512x64.Idx) (q : dot_S32x512x2048_S32x2048x64_S32x512x64_2_1_1_2_0_0.contr.Idx) : (dot_S32x512x2048_S32x2048x64_S32x512x64_2_1_1_2_0_0.lhsIdx i q 0).val = (i 0).val := by
  unfold DotDims.lhsIdx
  rw [dif_pos (show (0 : Fin S32x512x2048.rank) ∈ dot_S32x512x2048_S32x2048x64_S32x512x64_2_1_1_2_0_0.lhsBatch by decide)]
  rfl
theorem xct3_l1 (i : S32x512x64.Idx) (q : dot_S32x512x2048_S32x2048x64_S32x512x64_2_1_1_2_0_0.contr.Idx) : (dot_S32x512x2048_S32x2048x64_S32x512x64_2_1_1_2_0_0.lhsIdx i q 1).val = (i 1).val := by
  unfold DotDims.lhsIdx
  rw [dif_neg (show ¬(1 : Fin S32x512x2048.rank) ∈ dot_S32x512x2048_S32x2048x64_S32x512x64_2_1_1_2_0_0.lhsBatch by decide), dif_pos (show (1 : Fin S32x512x2048.rank) ∈ dot_S32x512x2048_S32x2048x64_S32x512x64_2_1_1_2_0_0.lhsNonContracting by decide)]
  rfl
theorem xct3_l2 (i : S32x512x64.Idx) (q : dot_S32x512x2048_S32x2048x64_S32x512x64_2_1_1_2_0_0.contr.Idx) : (dot_S32x512x2048_S32x2048x64_S32x512x64_2_1_1_2_0_0.lhsIdx i q 2).val = (q ⟨0, by decide⟩).val :=
  dot_S32x512x2048_S32x2048x64_S32x512x64_2_1_1_2_0_0.lhsIdx_val_of_single rfl i q
theorem xct3_r0 (i : S32x512x64.Idx) (q : dot_S32x512x2048_S32x2048x64_S32x512x64_2_1_1_2_0_0.contr.Idx) : (dot_S32x512x2048_S32x2048x64_S32x512x64_2_1_1_2_0_0.rhsIdx i q 0).val = (i 0).val := by
  unfold DotDims.rhsIdx
  rw [dif_pos (show (0 : Fin S32x2048x64.rank) ∈ dot_S32x512x2048_S32x2048x64_S32x512x64_2_1_1_2_0_0.rhsBatch by decide)]
  rfl
theorem xct3_r1 (i : S32x512x64.Idx) (q : dot_S32x512x2048_S32x2048x64_S32x512x64_2_1_1_2_0_0.contr.Idx) : (dot_S32x512x2048_S32x2048x64_S32x512x64_2_1_1_2_0_0.rhsIdx i q 1).val = (q ⟨0, by decide⟩).val :=
  dot_S32x512x2048_S32x2048x64_S32x512x64_2_1_1_2_0_0.rhsIdx_val_of_single rfl i q
theorem xct3_r2 (i : S32x512x64.Idx) (q : dot_S32x512x2048_S32x2048x64_S32x512x64_2_1_1_2_0_0.contr.Idx) : (dot_S32x512x2048_S32x2048x64_S32x512x64_2_1_1_2_0_0.rhsIdx i q 2).val = (i 2).val := by
  unfold DotDims.rhsIdx
  rw [dif_neg (show ¬(2 : Fin S32x2048x64.rank) ∈ dot_S32x512x2048_S32x2048x64_S32x512x64_2_1_1_2_0_0.rhsBatch by decide), dif_pos (show (2 : Fin S32x2048x64.rank) ∈ dot_S32x512x2048_S32x2048x64_S32x512x64_2_1_1_2_0_0.rhsNonContracting by decide)]
  rfl

/-- Entry `(t, p, q)` of the batched product is the sum over the contracted axis within slice `t`. -/
theorem xct3_apply (L : FVec Ideal S32x512x2048 .f32) (R : FVec Ideal S32x2048x64 .f32) (t : Fin 32) (p : Fin 512) (q : Fin 64) :
    Host.dotGeneral dot_S32x512x2048_S32x2048x64_S32x512x64_2_1_1_2_0_0 none L R (ix3 t p q) = ∑ k : Fin 2048, L (ix3 t p k) * R (ix3 t k q) := by
  simp only [Host.dotGeneral]
  rw [Ideal.dotGeneral_apply, ← Equiv.sum_comp (contrEquiv1 dot_S32x512x2048_S32x2048x64_S32x512x64_2_1_1_2_0_0 2048 rfl rfl).symm]
  refine Finset.sum_congr rfl fun k _ => ?_
  have hk := contrEquiv1_symm_val dot_S32x512x2048_S32x2048x64_S32x512x64_2_1_1_2_0_0 2048 rfl rfl k
  have el : dot_S32x512x2048_S32x2048x64_S32x512x64_2_1_1_2_0_0.lhsIdx (ix3 t p q) ((contrEquiv1 dot_S32x512x2048_S32x2048x64_S32x512x64_2_1_1_2_0_0 2048 rfl rfl).symm k) = ix3 t p k := funext fun a => Fin.ext (by
    match a with
    | ⟨0, _⟩ => exact xct3_l0 _ _
    | ⟨1, _⟩ => exact xct3_l1 _ _
    | ⟨2, _⟩ => exact (xct3_l2 _ _).trans hk)
  have er : dot_S32x512x2048_S32x2048x64_S32x512x64_2_1_1_2_0_0.rhsIdx (ix3 t p q) ((contrEquiv1 dot_S32x512x2048_S32x2048x64_S32x512x64_2_1_1_2_0_0 2048 rfl rfl).symm k) = ix3 t k q := funext fun a => Fin.ext (by
    match a with
    | ⟨0, _⟩ => exact xct3_r0 _ _
    | ⟨1, _⟩ => exact (xct3_r1 _ _).trans hk
    | ⟨2, _⟩ => exact xct3_r2 _ _)
  rw [el, er]

/-! ### `D C`, slice by slice -/

theorem dc3_l0 (i : S32x512x2048.Idx) (q : dot_S32x512x64_S32x64x2048_S32x512x2048_2_1_1_2_0_0.contr.Idx) : (dot_S32x512x64_S32x64x2048_S32x512x2048_2_1_1_2_0_0.lhsIdx i q 0).val = (i 0).val := by
  unfold DotDims.lhsIdx
  rw [dif_pos (show (0 : Fin S32x512x64.rank) ∈ dot_S32x512x64_S32x64x2048_S32x512x2048_2_1_1_2_0_0.lhsBatch by decide)]
  rfl
theorem dc3_l1 (i : S32x512x2048.Idx) (q : dot_S32x512x64_S32x64x2048_S32x512x2048_2_1_1_2_0_0.contr.Idx) : (dot_S32x512x64_S32x64x2048_S32x512x2048_2_1_1_2_0_0.lhsIdx i q 1).val = (i 1).val := by
  unfold DotDims.lhsIdx
  rw [dif_neg (show ¬(1 : Fin S32x512x64.rank) ∈ dot_S32x512x64_S32x64x2048_S32x512x2048_2_1_1_2_0_0.lhsBatch by decide), dif_pos (show (1 : Fin S32x512x64.rank) ∈ dot_S32x512x64_S32x64x2048_S32x512x2048_2_1_1_2_0_0.lhsNonContracting by decide)]
  rfl
theorem dc3_l2 (i : S32x512x2048.Idx) (q : dot_S32x512x64_S32x64x2048_S32x512x2048_2_1_1_2_0_0.contr.Idx) : (dot_S32x512x64_S32x64x2048_S32x512x2048_2_1_1_2_0_0.lhsIdx i q 2).val = (q ⟨0, by decide⟩).val :=
  dot_S32x512x64_S32x64x2048_S32x512x2048_2_1_1_2_0_0.lhsIdx_val_of_single rfl i q
theorem dc3_r0 (i : S32x512x2048.Idx) (q : dot_S32x512x64_S32x64x2048_S32x512x2048_2_1_1_2_0_0.contr.Idx) : (dot_S32x512x64_S32x64x2048_S32x512x2048_2_1_1_2_0_0.rhsIdx i q 0).val = (i 0).val := by
  unfold DotDims.rhsIdx
  rw [dif_pos (show (0 : Fin S32x64x2048.rank) ∈ dot_S32x512x64_S32x64x2048_S32x512x2048_2_1_1_2_0_0.rhsBatch by decide)]
  rfl
theorem dc3_r1 (i : S32x512x2048.Idx) (q : dot_S32x512x64_S32x64x2048_S32x512x2048_2_1_1_2_0_0.contr.Idx) : (dot_S32x512x64_S32x64x2048_S32x512x2048_2_1_1_2_0_0.rhsIdx i q 1).val = (q ⟨0, by decide⟩).val :=
  dot_S32x512x64_S32x64x2048_S32x512x2048_2_1_1_2_0_0.rhsIdx_val_of_single rfl i q
theorem dc3_r2 (i : S32x512x2048.Idx) (q : dot_S32x512x64_S32x64x2048_S32x512x2048_2_1_1_2_0_0.contr.Idx) : (dot_S32x512x64_S32x64x2048_S32x512x2048_2_1_1_2_0_0.rhsIdx i q 2).val = (i 2).val := by
  unfold DotDims.rhsIdx
  rw [dif_neg (show ¬(2 : Fin S32x64x2048.rank) ∈ dot_S32x512x64_S32x64x2048_S32x512x2048_2_1_1_2_0_0.rhsBatch by decide), dif_pos (show (2 : Fin S32x64x2048.rank) ∈ dot_S32x512x64_S32x64x2048_S32x512x2048_2_1_1_2_0_0.rhsNonContracting by decide)]
  rfl

/-- Entry `(t, p, q)` of the batched product is the sum over the contracted axis within slice `t`. -/
theorem dc3_apply (L : FVec Ideal S32x512x64 .f32) (R : FVec Ideal S32x64x2048 .f32) (t : Fin 32) (p : Fin 512) (q : Fin 2048) :
    Host.dotGeneral dot_S32x512x64_S32x64x2048_S32x512x2048_2_1_1_2_0_0 none L R (ix3 t p q) = ∑ k : Fin 64, L (ix3 t p k) * R (ix3 t k q) := by
  simp only [Host.dotGeneral]
  rw [Ideal.dotGeneral_apply, ← Equiv.sum_comp (contrEquiv1 dot_S32x512x64_S32x64x2048_S32x512x2048_2_1_1_2_0_0 64 rfl rfl).symm]
  refine Finset.sum_congr rfl fun k _ => ?_
  have hk := contrEquiv1_symm_val dot_S32x512x64_S32x64x2048_S32x512x2048_2_1_1_2_0_0 64 rfl rfl k
  have el : dot_S32x512x64_S32x64x2048_S32x512x2048_2_1_1_2_0_0.lhsIdx (ix3 t p q) ((contrEquiv1 dot_S32x512x64_S32x64x2048_S32x512x2048_2_1_1_2_0_0 64 rfl rfl).symm k) = ix3 t p k := funext fun a => Fin.ext (by
    match a with
    | ⟨0, _⟩ => exact dc3_l0 _ _
    | ⟨1, _⟩ => exact dc3_l1 _ _
    | ⟨2, _⟩ => exact (dc3_l2 _ _).trans hk)
  have er : dot_S32x512x64_S32x64x2048_S32x512x2048_2_1_1_2_0_0.rhsIdx (ix3 t p q) ((contrEquiv1 dot_S32x512x64_S32x64x2048_S32x512x2048_2_1_1_2_0_0 64 rfl rfl).symm k) = ix3 t k q := funext fun a => Fin.ext (by
    match a with
    | ⟨0, _⟩ => exact dc3_r0 _ _
    | ⟨1, _⟩ => exact (dc3_r1 _ _).trans hk
    | ⟨2, _⟩ => exact dc3_r2 _ _)
  rw [el, er]

/-! ## The scalar guard repeated over an array, and the arguments repeated along the batch axis -/

theorem guardC_apply (i : S32x64x2048.Idx) : (broadcastInDim S32x64x2048 ![] bcast_S_S32x64x2048 (constant (F := Ideal) S_ .f32 0x32ABCC77#32)) i = eps :=
  broadcastInDim_apply _ bcast_S_S32x64x2048 _ i (fun a => a.elim0) (fun a => a.elim0)

theorem guardD_apply (i : S32x512x64.Idx) : (broadcastInDim S32x512x64 ![] bcast_S_S32x512x64 (constant (F := Ideal) S_ .f32 0x32ABCC77#32)) i = eps :=
  broadcastInDim_apply _ bcast_S_S32x512x64 _ i (fun a => a.elim0) (fun a => a.elim0)

theorem start_sl (d : FVec Ideal S512x64 .f32) (c : FVec Ideal S64x2048 .f32) (t : Fin 32) :
    (sl (startOf (F := Ideal) d c).1 t, sl (startOf (F := Ideal) d c).2 t) = (mat d, mat c) := by
  refine Prod.ext (funext fun p => funext fun q => ?_) (funext fun p => funext fun q => ?_)
  · exact broadcastInDim_apply _ bcast_S512x64_S32x512x64_1_2 d (ix3 t p q) (ix2 p q) (fun a => match a with
      | ⟨0, _⟩ => by show p.val = if (512 : Nat) = 1 then 0 else p.val; rw [if_neg (by decide)]
      | ⟨1, _⟩ => by show q.val = if (64 : Nat) = 1 then 0 else q.val; rw [if_neg (by decide)])
  · exact broadcastInDim_apply _ bcast_S64x2048_S32x64x2048_1_2 c (ix3 t p q) (ix2 p q) (fun a => match a with
      | ⟨0, _⟩ => by show p.val = if (64 : Nat) = 1 then 0 else p.val; rw [if_neg (by decide)]
      | ⟨1, _⟩ => by show q.val = if (2048 : Nat) = 1 then 0 else q.val; rw [if_neg (by decide)])

/-- The rectified data at an entry. -/
theorem data_sl (x : FVec Ideal S32x512x2048 .f32) (t : Fin 32) (p : Fin 512) (q : Fin 2048) :
    sl (dataOf (F := Ideal) x) t p q = max (x (ix3 t p q)) 0 := by
  show max (x (ix3 t p q)) (broadcastInDim S32x512x2048 ![] bcast_S_S32x512x2048 (constant (F := Ideal) S_ .f32 0x00000000#32) (ix3 t p q)) = _
  rw [broadcastInDim_apply _ bcast_S_S32x512x2048 _ (ix3 t p q) (fun a => a.elim0) (fun a => a.elim0)]
  show max _ (Ideal.ofBits .f32 0x00000000#32) = _
  rw [Ideal.ofBits_zero_f32]

/-! ## The transposes of the last two axes at an entry -/

theorem tD_apply (D : FVec Ideal S32x512x64 .f32) (t : Fin 32) (r : Fin 64) (k : Fin 512) :
    transpose S32x64x512 [0, 2, 1] D transposes_S32x512x64_S32x64x512_0_2_1 (ix3 t r k) = D (ix3 t k r) :=
  transpose_ix3_021_apply D transposes_S32x512x64_S32x64x512_0_2_1 t r k

theorem tC_apply (C : FVec Ideal S32x64x2048 .f32) (t : Fin 32) (n : Fin 2048) (r : Fin 64) :
    transpose S32x2048x64 [0, 2, 1] C transposes_S32x64x2048_S32x2048x64_0_2_1 (ix3 t n r) = C (ix3 t r n) :=
  transpose_ix3_021_apply C transposes_S32x64x2048_S32x2048x64_0_2_1 t n r

/-! ## One round at a slice -/

theorem roundC_sl (X : FVec Ideal S32x512x2048 .f32) (D : FVec Ideal S32x512x64 .f32) (C : FVec Ideal S32x64x2048 .f32) (t : Fin 32) :
    sl (roundC (F := Ideal) X D C) t = updC eps (sl X t) (sl D t) (sl C t) := by
  funext r n
  show C (ix3 t r n) * Ideal.div (Host.dotGeneral dot_S32x64x512_S32x512x2048_S32x64x2048_2_1_1_2_0_0 none (transpose S32x64x512 [0, 2, 1] D transposes_S32x512x64_S32x64x512_0_2_1) X (ix3 t r n))
      (Host.dotGeneral dot_S32x64x64_S32x64x2048_S32x64x2048_2_1_1_2_0_0 none
        (Host.dotGeneral dot_S32x64x512_S32x512x64_S32x64x64_2_1_1_2_0_0 none (transpose S32x64x512 [0, 2, 1] D transposes_S32x512x64_S32x64x512_0_2_1) D) C (ix3 t r n)
        + (broadcastInDim S32x64x2048 ![] bcast_S_S32x64x2048 (constant (F := Ideal) S_ .f32 0x32ABCC77#32)) (ix3 t r n)) = _
  rw [dtx3_apply, gc3_apply, guardC_apply]
  refine congrArg (C (ix3 t r n) * ·) ?_
  refine congrArg₂ Ideal.div (Finset.sum_congr rfl fun k _ => ?_) (congrArg (· + eps) (Finset.sum_congr rfl fun s _ => ?_))
  · rw [tD_apply]; rfl
  · rw [dtd3_apply]
    refine congrArg (· * C (ix3 t s n)) (Finset.sum_congr rfl fun k _ => ?_)
    rw [tD_apply]; rfl

theorem roundD_sl (X : FVec Ideal S32x512x2048 .f32) (D : FVec Ideal S32x512x64 .f32) (C : FVec Ideal S32x64x2048 .f32) (t : Fin 32) :
    sl (roundD (F := Ideal) X D C) t = updDr eps (sl X t) (sl D t) (sl C t) := by
  funext d r
  show D (ix3 t d r) * Ideal.div (Host.dotGeneral dot_S32x512x2048_S32x2048x64_S32x512x64_2_1_1_2_0_0 none X (transpose S32x2048x64 [0, 2, 1] C transposes_S32x64x2048_S32x2048x64_0_2_1) (ix3 t d r))
      (Host.dotGeneral dot_S32x512x2048_S32x2048x64_S32x512x64_2_1_1_2_0_0 none
        (Host.dotGeneral dot_S32x512x64_S32x64x2048_S32x512x2048_2_1_1_2_0_0 none D C) (transpose S32x2048x64 [0, 2, 1] C transposes_S32x64x2048_S32x2048x64_0_2_1) (ix3 t d r)
        + (broadcastInDim S32x512x64 ![] bcast_S_S32x512x64 (constant (F := Ideal) S_ .f32 0x32ABCC77#32)) (ix3 t d r)) = _
  rw [xct3_apply, xct3_apply, guardD_apply]
  refine congrArg (D (ix3 t d r) * ·) ?_
  refine congrArg₂ Ideal.div (Finset.sum_congr rfl fun k _ => ?_) (congrArg (· + eps) (Finset.sum_congr rfl fun n _ => ?_))
  · rw [tC_apply]; rfl
  · rw [dc3_apply, tC_apply]; rfl

/-- Slice `t` of the pair of factors. -/
def slp (p : FVec Ideal S32x512x64 .f32 × FVec Ideal S32x64x2048 .f32) (t : Fin 32) :
    (Fin 512 → Fin 64 → EReal) × (Fin 64 → Fin 2048 → EReal) := (sl p.1 t, sl p.2 t)

theorem round_slp (X : FVec Ideal S32x512x2048 .f32) (p : FVec Ideal S32x512x64 .f32 × FVec Ideal S32x64x2048 .f32) (t : Fin 32) :
    slp (round (F := Ideal) X p) t = stepR eps (sl X t) (slp p t) :=
  Prod.ext (roundD_sl X p.1 p.2 t) (roundC_sl X p.1 p.2 t)

/-- The reference's result at an entry: `D C` after six rounds of the update, within the entry's slice. -/
theorem resultOf_apply (x : FVec Ideal S32x512x2048 .f32) (d : FVec Ideal S512x64 .f32) (c : FVec Ideal S64x2048 .f32)
    (t : Fin 32) (p : Fin 512) (q : Fin 2048) :
    resultOf (F := Ideal) x d c (ix3 t p q)
      = prod ((stepR eps (sl (dataOf (F := Ideal) x) t))^[6] (mat d, mat c)).1 ((stepR eps (sl (dataOf (F := Ideal) x) t))^[6] (mat d, mat c)).2 p q := by
  unfold resultOf
  rw [dc3_apply]
  show prod (slp (round (F := Ideal) (dataOf (F := Ideal) x) (round (F := Ideal) (dataOf (F := Ideal) x) (round (F := Ideal) (dataOf (F := Ideal) x) (round (F := Ideal) (dataOf (F := Ideal) x) (round (F := Ideal) (dataOf (F := Ideal) x) (round (F := Ideal) (dataOf (F := Ideal) x) (startOf (F := Ideal) d c))))))) t).1
      (slp (round (F := Ideal) (dataOf (F := Ideal) x) (round (F := Ideal) (dataOf (F := Ideal) x) (round (F := Ideal) (dataOf (F := Ideal) x) (round (F := Ideal) (dataOf (F := Ideal) x) (round (F := Ideal) (dataOf (F := Ideal) x) (round (F := Ideal) (dataOf (F := Ideal) x) (startOf (F := Ideal) d c))))))) t).2 p q = _
  simp only [round_slp]
  rw [show slp (startOf (F := Ideal) d c) t = (mat d, mat c) from start_sl d c t]
  rfl

end Cert.ReferenceIdeal.Round

end
-- ==== Proof.PreNonneg.lean ====
/-
  The precondition read back: the two sign clauses. The printed predicate is the conjunction of five
  `all`-reductions — the three inputs have no infinite entry, and every entry of the second and of the third
  input is at least zero. From the claim that the predicate answers 1 this module derives the last two clauses as
  plain inequalities on the extended reals: `0 ≤ D i` at every index of the second input and `0 ≤ C i` at
  every index of the third.
-/
import proofs.«117164_j8220567404862_2_alg».proof.Pre_finite_inputs
import proofs.«117164_j8220567404862_2_alg».proof.Proof.Gen.Pre_finite_inputs
import Idealize.ShloMosaic.Lib.ReduceAll
import Idealize.ShloMosaic.Lib.ValueIdx
import Idealize.ShloMosaic.PureOps.Ideal.Laws

noncomputable section

namespace Cert.PreNonneg

open Idealize.ShloMosaic Cert.Pre_finite_inputs

/-- The rank-0 shape has exactly one index: two indices are functions out of the empty set of axes. -/
instance : Subsingleton S_.Idx := ⟨fun a b => funext fun d => d.elim0⟩

/-- A comparison `a ≥ 0` on the linear order that answers 1 says `0 ≤ a`; the zero word's value is `0`. -/
theorem nonneg_of_cmp (a : EReal) (h : Ideal.cmp .oge a (Ideal.ofBits .f32 0x00000000#32) = 1#1) : (0 : EReal) ≤ a := by
  rw [Ideal.ofBits_zero_f32] at h
  by_contra hn
  simp [Ideal.cmp, hn] at h

/-- If the precondition holds, every entry of the second and of the third input is nonnegative. The predicate is
    `((((a₁ ∧ a₂) ∧ a₃) ∧ a₄) ∧ a₅)` with `a₄ = all (D ≥ 0)` and `a₅ = all (C ≥ 0)`; the conjunction being 1 gives
    `a₄ = 1` and `a₅ = 1`, a reduction by `and` over every axis that is 1 had a 1 at every index, and a
    comparison against the broadcast zero that is 1 at `i` is the inequality there. -/
theorem nonneg_of_pre (x : FVec Ideal S32x512x2048 .f32) (D : FVec Ideal S512x64 .f32) (C : FVec Ideal S64x2048 .f32)
    (h : Cert.Pre_finite_inputs.fn (F := Ideal) x D C = (fun _ => 1#1)) :
    (∀ i : S512x64.Idx, (0 : EReal) ≤ D i) ∧ (∀ i : S64x2048.Idx, (0 : EReal) ≤ C i) := by
  have h0 := congrFun h ValueIdx.ix0
  dsimp only [fn, fn_part1, andi] at h0
  obtain ⟨h17, hC⟩ := IntOp.andi_eq_one.1 h0
  obtain ⟨-, hD⟩ := IntOp.andi_eq_one.1 h17
  refine ⟨fun i => ?_, fun i => ?_⟩
  · have e := Host.reduce_andi_all _ _ _ _ _ hD i
    exact nonneg_of_cmp (D i) e
  · have e := Host.reduce_andi_all _ _ _ _ _ hC i
    exact nonneg_of_cmp (C i) e

end Cert.PreNonneg

end
-- ==== Proof.Bridge.lean ====
/-
  The two results are one array.

  Entry `(t, a, b)` of the kernel's result is `(D₆ C₆)[a, b]` for six rounds with the divisor of the basis update bracketed as
  `D (C Cᵀ)`; the same entry of the reference's result is that for six rounds with it bracketed as `(D C) Cᵀ` — both over the same
  rectified slice `max(x_t, 0)` and from the same factors.  The precondition makes `D` and `C` nonnegative, the rectified data is
  nonnegative by construction, and ε > 0: so the rounds agree (the shared mathematics), and the entries are equal.
-/
import proofs.«117164_j8220567404862_2_alg».proof.Defs
import proofs.«117164_j8220567404862_2_alg».proof.Proof.KernelValue
import proofs.«117164_j8220567404862_2_alg».proof.Proof.RefRound
import proofs.«117164_j8220567404862_2_alg».proof.Proof.PreNonneg

noncomputable section

namespace Cert.Bridge

open Idealize.ShloMosaic Idealize.ShloMosaic.TcCoe Idealize.SL.Sem Idealize.ShloMosaic.ValueIdx Cert.Nmf

/-- Under the precondition the kernel's result array IS the reference's result function of the same arguments. -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.Gen.dats m 0 c).arrAt 3 Cert.KernelIdeal.cfg0.N
      = Cert.ReferenceIdeal.ValueP.resultOf (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨hD, hC⟩ := Cert.PreNonneg.nonneg_of_pre _ _ _ (hpre c)
  funext i
  obtain ⟨t, a, b, rfl⟩ : ∃ (t : Fin 32) (a : Fin 512) (b : Fin 2048), i = ix3 t a b := ⟨i 0, i 1, i 2, eq_ix3 i⟩
  rw [Cert.KernelIdeal.Entry.arr_apply32, Cert.ReferenceIdeal.Round.resultOf_apply]
  have hX : sl (Cert.ReferenceIdeal.ValueP.dataOf (F := Ideal) (m ((c.tc : Thread Cert.KernelIdeal.nD Cert.KernelIdeal.τ).loc Cert.KernelIdeal.main_arg0))) t
      = fun p q => max (Cert.KernelIdeal.Entry.AX m c (ix3 t p q)) 0 :=
    funext fun p => funext fun q => Cert.ReferenceIdeal.Round.data_sl _ t p q
  rw [hX]
  have hit := iter_eq (e := eps) eps_pos
    (X := fun p q => max (Cert.KernelIdeal.Entry.AX m c (ix3 t p q)) 0)
    (fun p q => le_max_right _ _)
    (mat (Cert.KernelIdeal.Entry.AD m c), mat (Cert.KernelIdeal.Entry.AC m c))
    (fun p q => hD _) (fun p q => hC _) 6
  exact congrArg (fun s => prod s.1 s.2 a b) hit.1

end Cert.Bridge

end
-- ==== Proof.lean ====
/-
  The certificate: a Pallas kernel for six rounds of the multiplicative update of a factorisation `relu(x) ≈ D C`
  (x: 32×512×2048, D: 512×64, C: 64×2048; one grid point per slice of x), against the jnp reference.

  Both programs, per slice `t`, start from `(D, C)`, make six rounds
      C ← C ⊙ (Dᵀ X) ⊘ ((Dᵀ D) C + ε),      D ← D ⊙ (X Cᵀ) ⊘ (M + ε),      X = max(x_t, 0),
  and return `D C`.  They differ in one bracketing: the kernel forms the divisor matrix as M = D (C Cᵀ), the reference as
  M = (D C) Cᵀ.  On the extended reals the two can differ once an entry is infinite, which a zero divisor produces from factors of
  mixed sign; the precondition therefore asks, beyond finiteness, that D and C be entrywise nonnegative.  Then every quantity in
  every round is nonnegative, every divisor is at least ε > 0, multiplication distributes over sums of nonnegatives, and the two
  bracketings are the same triple sum (Proof/NonnegLaw.lean).  The kernel's changes of float format are the identity here and all
  its matrix products are the plain sums, so its stored block is those six rounds read entry by entry (Proof/KernelRound.lean,
  Proof/KernelValue.lean); the reference's batched products restrict to slices (Proof/RefRound.lean) over its run
  (Proof/RefRun.lean); Proof/Bridge.lean puts the two together, and Proof/PreNonneg.lean reads the nonnegativity off the
  precondition.  The three frames are the generated ones (the reference's is its run with the result dropped); the idealization
  rewrote nothing, so `preserves` is trivial.
-/
import proofs.«117164_j8220567404862_2_alg».proof.Defs
import proofs.«117164_j8220567404862_2_alg».proof.Proof.Gen.Kernel
import proofs.«117164_j8220567404862_2_alg».proof.Proof.Gen.Kernel.Skeleton
import proofs.«117164_j8220567404862_2_alg».proof.Proof.Gen.Kernel.Launch
import proofs.«117164_j8220567404862_2_alg».proof.Proof.Gen.Kernel.Points
import proofs.«117164_j8220567404862_2_alg».proof.Proof.Gen.Kernel.Frame
import proofs.«117164_j8220567404862_2_alg».proof.Proof.Gen.KernelIdeal
import proofs.«117164_j8220567404862_2_alg».proof.Proof.Gen.KernelIdeal.Skeleton
import proofs.«117164_j8220567404862_2_alg».proof.Proof.Gen.KernelIdeal.Launch
import proofs.«117164_j8220567404862_2_alg».proof.Proof.Gen.KernelIdeal.Points
import proofs.«117164_j8220567404862_2_alg».proof.Proof.Gen.KernelIdeal.Frame
import proofs.«117164_j8220567404862_2_alg».proof.Proof.Gen.ReferenceIdeal
import proofs.«117164_j8220567404862_2_alg».proof.Proof.Gen.Pre_finite_inputs
import proofs.«117164_j8220567404862_2_alg».proof.Proof.Gen.KernelIdeal.Value
import Idealize.ShloMosaic.Adequacy
import Idealize.ShloMosaic.Init

import proofs.«117164_j8220567404862_2_alg».proof.Proof.RefRun
import proofs.«117164_j8220567404862_2_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's result function of the (agreeing) arguments: the reference by its run, the kernel
    because its result array is that function under the precondition (`Bridge.result_eq`). -/
theorem algebraic : Cert.algebraic_KernelIdeal_ReferenceIdeal := by
  intro m ρ m' ρ' hpre hagree
  refine ⟨fun c => Cert.ReferenceIdeal.ValueP.resultOf (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Bridge.result_eq m hpre c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.ValueP.run (F := Ideal) m' ρ')
    show Cert.ReferenceIdeal.ValueP.resultOf (F := Ideal) _ _ _ = _
    rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
